-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x512 : Shape := ⟨2, ![512, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x2048x512 .f32) (main_arg1 : FVec F S16x2048x512 .f32) (main_arg2 : FVec F S512x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S16x2048x512 : Shape := ⟨3, ![16, 2048, 512]⟩
abbrev S512x512 : Shape := ⟨2, ![512, 512]⟩
abbrev S32768x512 : Shape := ⟨2, ![32768, 512]⟩
abbrev S1024x512 : Shape := ⟨2, ![1024, 512]⟩
abbrev S16x1x2048 : Shape := ⟨3, ![16, 1, 2048]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 8
  | .vmem => 19
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S32768x512, .f32⟩
  | .hbm, ⟨4, _⟩ => ⟨S32768x512, .bf16⟩
  | .hbm, ⟨5, _⟩ => ⟨S16x2048x512, .bf16⟩
  | .hbm, ⟨6, _⟩ => ⟨S16x1x2048, .f32⟩
  | .hbm, ⟨7, _⟩ => ⟨S16x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .f32⟩
  | .local _ .vmem, ⟨8, _⟩ => ⟨S1x512x512, .f32⟩
  | .local _ .vmem, ⟨9, _⟩ => ⟨S1x1x512, .f32⟩
  | .local _ .vmem, ⟨10, _⟩ => ⟨S1x1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x1x512, .f32⟩
  | .local _ .vmem, ⟨16, _⟩ => ⟨S1x1x512, .f32⟩
  | .local _ .vmem, ⟨17, _⟩ => ⟨S1x512x512, .f32⟩
  | .local _ .vmem, ⟨18, _⟩ => ⟨S1x512x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 4, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S16x2048x512_S32768x512 : S16x2048x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  shapeCasts_S32768x512_S16x2048x512 : S32768x512.ShapeCasts S16x2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [0] S512
  shapeCasts_S512_S1x512 : S512.ShapeCasts S1x512
  shapeCasts_S512x512_S1x512x512 : S512x512.ShapeCasts S1x512x512
  broadcasts_S1x512_S512x512 : S1x512.Broadcasts S512x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .bf16 = 32 ∨ (Rect.block (s := S32768x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S16x2048x512.size a
  hwx1_0 : ∀ i : grid1.Coords, EltTy.bits .bf16 = 32 ∨ (Rect.block (s := S16x2048x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S16x2048x512.size a
  hwx1_1 : ∀ i : grid1.Coords, EltTy.bits .f32 = 32 ∨ (Rect.block (s := S16x2048x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S16x1x2048.size a
  hwx1_2 : ∀ i : grid1.Coords, EltTy.bits .f32 = 32 ∨ (Rect.block (s := S16x1x2048) S1x1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S16x2048x512.size a
  hwx2_0 : ∀ i : grid2.Coords, EltTy.bits .bf16 = 32 ∨ (Rect.block (s := S16x2048x512) S1x512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S16x2048x512.size a
  hwx2_1 : ∀ i : grid2.Coords, EltTy.bits .f32 = 32 ∨ (Rect.block (s := S16x2048x512) S1x512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S16x1x2048.size a
  hwx2_2 : ∀ i : grid2.Coords, EltTy.bits .f32 = 32 ∨ (Rect.block (s := S16x1x2048) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S16x2048x512.size a
  hwx2_3 : ∀ i : grid2.Coords, EltTy.bits .f32 = 32 ∨ (Rect.block (s := S16x2048x512) S1x512x512.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x2048x512 : Shape := ⟨3, ![16, 2048, 512]⟩
abbrev S512x512 : Shape := ⟨2, ![512, 512]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S16x2048x512, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x1x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | .hbm, ⟨27, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  dot_S16x2048x512_S512x512_S16x2048x512_2_0_01_1_n_n_wf : DotDims.WF S16x2048x512 S512x512 S16x2048x512 [2] [0] [0, 1] [1] [] []
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.Spec.lean ====
/-
  Bilinear attention with the softmax taken over the QUERY axis, as one function of the three argument arrays.

  For z, e : [16, 2048, 512] and M : [512, 512] put
    zm b n k   = ∑ d, z b n d · M d k                       (z·M)
    score b n m = ∑ d, zm b n d · e b m d                   (z·M·eᵀ)
    act b n m  = 1 / (1 + exp (−score b n m))               (the logistic function of the score)
  Two arrangements of "softmax of act over n, then times e":
    outK b n d = ∑ m, (exp (act b n m) · (1 / ∑ n', exp (act b n' m))) · e b m d
    outR b n d = ∑ m, (exp (act b n m − μ b m) / ∑ n', exp (act b n' m − μ b m)) · e b m d,   μ b m = max over n of act b n m.
  The first divides by the column sum of the plain exponentials; the second subtracts the column maximum first.
  Everything is on the extended reals, the operations the exact ones.
-/
import Idealize.ShloMosaic.PureOps.Ideal
import Idealize.ShloMosaic.Lib.ValueIdx

noncomputable section

namespace Cert.Attn

open Idealize.ShloMosaic Idealize.ShloMosaic.ValueIdx

/-- The shape of z, of e and of the result. -/
abbrev A3 : Shape := ⟨3, ![16, 2048, 512]⟩
/-- The shape of M. -/
abbrev M2 : Shape := ⟨2, ![512, 512]⟩

/-- Position r of block q when the 2048 positions of an axis are cut into four blocks of 512. -/
def at4 (q : Fin 4) (r : Fin 512) : Fin 2048 := ⟨q.val * 512 + r.val, by have := q.isLt; have := r.isLt; omega⟩

variable (z e : A3.Idx → EReal) (M : M2.Idx → EReal)

/-- z·M at (b, n, k). -/
def zm (b : Fin 16) (n : Fin 2048) (k : Fin 512) : EReal := ∑ d : Fin 512, z (ix3 b n d) * M (ix2 d k)

/-- The score (z·M)·eᵀ at (b, n, m). -/
def score (b : Fin 16) (n m : Fin 2048) : EReal := ∑ d : Fin 512, zm z M b n d * e (ix3 b m d)

/-- The logistic function 1 / (1 + exp (−x)) on the extended reals. -/
def sg (x : EReal) : EReal := Ideal.div 1 (1 + Ideal.exp (-x))

/-- The activation: the logistic function of the score. -/
def act (b : Fin 16) (n m : Fin 2048) : EReal := sg (score z e M b n m)

/-- The column sum over the query axis of the exponentials of the activation. -/
def colsum (b : Fin 16) (m : Fin 2048) : EReal := ∑ n : Fin 2048, Ideal.exp (act z e M b n m)

/-- The result with the normalizer applied as a reciprocal of the plain column sum. -/
def outK (b : Fin 16) (n : Fin 2048) (d : Fin 512) : EReal :=
  ∑ m : Fin 2048, (Ideal.exp (act z e M b n m) * Ideal.div 1 (colsum z e M b m)) * e (ix3 b m d)

/-- The column maximum over the query axis of the activation. -/
def colmax (b : Fin 16) (m : Fin 2048) : EReal := Finset.univ.sup fun n : Fin 2048 => act z e M b n m

/-- The exponential of the activation shifted by its column maximum. -/
def shifted (b : Fin 16) (n m : Fin 2048) : EReal := Ideal.exp (act z e M b n m - colmax z e M b m)

/-- The result with the column maximum subtracted before the exponential, divided by the shifted column sum. -/
def outR (b : Fin 16) (n : Fin 2048) (d : Fin 512) : EReal :=
  ∑ m : Fin 2048, Ideal.div (shifted z e M b n m) (∑ n' : Fin 2048, shifted z e M b n' m) * e (ix3 b m d)

end Cert.Attn

end
-- ==== Proof.Algebra.lean ====
/-
  Pure algebra on the extended reals behind the two arrangements of the query-axis softmax.

  * The logistic function takes a real value at every extended real, so the activation is finite everywhere.
  * For finitely many real numbers a k with maximum μ,
      exp (a n) · (1 / ∑ k, exp (a k)) = exp (a n − μ) / ∑ k, exp (a k − μ):
    multiply numerator and denominator by exp (−μ).
  * Hence the two arrangements agree entry by entry.
  * A sum over 2048 positions is the sum over four blocks of 512 positions.
-/
import proofs.«152962_j29918742184780_2_alg».proof.Proof.Spec
import Mathlib.Algebra.BigOperators.Fin
import Mathlib.Analysis.SpecialFunctions.Exp

noncomputable section

namespace Cert.Attn

open Idealize.ShloMosaic Idealize.ShloMosaic.ValueIdx

/-- The logistic function 1 / (1 + exp (−x)) is a real number at every extended real:
    0 at −∞, (1 + exp (−r))⁻¹ at a real r, and 1 at +∞. -/
theorem sg_real (x : EReal) : ∃ r : ℝ, sg x = (r : EReal) := by
  induction x using EReal.rec with
  | bot => exact ⟨0, by show Ideal.logistic ⊥ = _; rw [Ideal.logistic_bot, EReal.coe_zero]⟩
  | coe r => exact ⟨(1 + Real.exp (-r))⁻¹, Ideal.logistic_coe r⟩
  | top => exact ⟨1, by show Ideal.logistic ⊤ = _; rw [Ideal.logistic_top, EReal.coe_one]⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Softmax weights of finitely many real numbers are unchanged by subtracting their maximum first:
    with S = ∑ exp (a k) > 0 and μ the maximum, ∑ exp (a k − μ) = S / exp μ, so
    exp (a n − μ) / (S / exp μ) = exp (a n) / S. -/
theorem factor_eq {N : ℕ} (a : Fin N → EReal) (ha : ∀ k, ∃ r : ℝ, a k = (r : EReal)) (n : Fin N) :
    Ideal.exp (a n) * Ideal.div 1 (∑ k, Ideal.exp (a k)) =
      Ideal.div (Ideal.exp (a n - Finset.univ.sup a)) (∑ k, Ideal.exp (a k - Finset.univ.sup a)) := by
  choose r hr using ha
  have hne : (Finset.univ : Finset (Fin N)).Nonempty := ⟨n, Finset.mem_univ n⟩
  -- the maximum of finitely many reals is one of them
  obtain ⟨j, -, hj⟩ := Finset.exists_mem_eq_sup Finset.univ hne a
  have hμ : Finset.univ.sup a = ((r j : ℝ) : EReal) := by rw [hj, hr j]
  have hS : ∑ k, Ideal.exp (a k) = ((∑ k, Real.exp (r k) : ℝ) : EReal) := by
    rw [coe_finset_sum]
    exact Finset.sum_congr rfl fun k _ => by rw [hr k, Ideal.exp_coe]
  have hS' : ∑ k, Ideal.exp (a k - Finset.univ.sup a) = ((∑ k, Real.exp (r k - r j) : ℝ) : EReal) := by
    rw [coe_finset_sum]
    exact Finset.sum_congr rfl fun k _ => by rw [hμ, hr k, ← EReal.coe_sub, Ideal.exp_coe]
  have hpos : 0 < ∑ k, Real.exp (r k) := Finset.sum_pos (fun k _ => Real.exp_pos _) hne
  have hpos' : 0 < ∑ k, Real.exp (r k - r j) := Finset.sum_pos (fun k _ => Real.exp_pos _) hne
  rw [hS, hS', Ideal.div_coe hpos.ne', Ideal.div_coe hpos'.ne', hμ, hr n, ← EReal.coe_sub, Ideal.exp_coe,
    Ideal.exp_coe, one_mul, ← EReal.coe_mul, ← EReal.coe_mul, EReal.coe_eq_coe_iff]
  -- the identity on the reals
  have hsum : ∑ k, Real.exp (r k - r j) = (∑ k, Real.exp (r k)) / Real.exp (r j) := by
    rw [Finset.sum_div]
    exact Finset.sum_congr rfl fun k _ => Real.exp_sub _ _
  rw [hsum, Real.exp_sub]
  have hμpos := Real.exp_pos (r j)
  field_simp

/-- The two arrangements of the query-axis softmax agree at every entry. -/
theorem outK_eq_outR (z e : A3.Idx → EReal) (M : M2.Idx → EReal) (b : Fin 16) (n : Fin 2048) (d : Fin 512) :
    outK z e M b n d = outR z e M b n d := by
  unfold outK outR colsum shifted colmax
  refine Finset.sum_congr rfl fun m _ => ?_
  rw [factor_eq (fun n' => act z e M b n' m) (fun k => sg_real _) n]

/-- A sum over 2048 positions, regrouped as four blocks of 512 positions: position q·512 + r is position r of block q. -/
theorem sum_at4 {α : Type*} [AddCommMonoid α] (f : Fin 2048 → α) :
    ∑ n : Fin 2048, f n = ∑ q : Fin 4, ∑ r : Fin 512, f (at4 q r) := by
  calc ∑ n : Fin 2048, f n = ∑ x : Fin 4 × Fin 512, f (at4 x.1 x.2) := by
        symm
        refine Fintype.sum_equiv (finProdFinEquiv : Fin 4 × Fin 512 ≃ Fin (4 * 512)) _ _ fun x => ?_
        congr 1
        apply Fin.ext
        show x.1.val * 512 + x.2.val = x.2.val + 512 * x.1.val
        omega
    _ = ∑ q : Fin 4, ∑ r : Fin 512, f (at4 q r) := Fintype.sum_prod_type' fun q r => f (at4 q r)

end Cert.Attn

end
-- ==== Proof.RefValue.lean ====
/-
  The reference program read at an index, at the ideal instance.

  The reference computes, in order: z·M, the score (z·M)·eᵀ, the logistic function of the score (the activation), the
  maximum of the activation over the query axis, the exponential of the activation minus that maximum, the sum of these
  exponentials over the query axis, their quotient, and the product of the quotient with e. Each stage below is read at
  an index with explicit coordinates and identified with the specification's function of the same name; the last one is
  the specification's outR.
-/
import proofs.«152962_j29918742184780_2_alg».proof.Proof.Spec
import proofs.«152962_j29918742184780_2_alg».proof.Proof.Gen.ReferenceIdeal.Read
import Idealize.ShloMosaic.Lib.IdealHost
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.SL.Sem Idealize.ShloMosaic.StableHlo

/-- The type of z, of e and of the result. -/
abbrev T3 : Type := (⟨S16x2048x512, .f32⟩ : BufTy).Contents (Elt Ideal)
/-- The type of M. -/
abbrev T2 : Type := (⟨S512x512, .f32⟩ : BufTy).Contents (Elt Ideal)

variable (x0 x1 : T3) (x2 : T2)

/-! ## The two products -/

/-- The first product is z·M. -/
theorem zm_apply (b : Fin 16) (n : Fin 2048) (k : Fin 512) :
    val_main_v0 (F := Ideal) x0 x2 (ix3 b n k) = Cert.Attn.zm x0 x2 b n k := by
  rw [val_main_v0_apply]
  unfold Cert.Attn.zm
  refine Finset.sum_congr rfl fun d _ => ?_
  have el : lidx_main_v0 (ix3 b n k) d = ix3 b n d :=
    funext fun a => Fin.ext (by match a with | ⟨0, _⟩ => rfl | ⟨1, _⟩ => rfl | ⟨2, _⟩ => rfl)
  have er : ridx_main_v0 (ix3 b n k) d = ix2 d k :=
    funext fun a => Fin.ext (by match a with | ⟨0, _⟩ => rfl | ⟨1, _⟩ => rfl)
  rw [el, er]

/-- The second product is the score (z·M)·eᵀ. -/
theorem score_apply (b : Fin 16) (n m : Fin 2048) :
    val_main_v1 (F := Ideal) x0 x1 x2 (ix3 b n m) = Cert.Attn.score x0 x1 x2 b n m := by
  rw [val_main_v1_apply]
  unfold Cert.Attn.score
  refine Finset.sum_congr rfl fun d _ => ?_
  have el : lidx_main_v1 (ix3 b n m) d = ix3 b n d :=
    funext fun a => Fin.ext (by match a with | ⟨0, _⟩ => rfl | ⟨1, _⟩ => rfl | ⟨2, _⟩ => rfl)
  have er : ridx_main_v1 (ix3 b n m) d = ix3 b m d :=
    funext fun a => Fin.ext (by match a with | ⟨0, _⟩ => rfl | ⟨1, _⟩ => rfl | ⟨2, _⟩ => rfl)
  rw [el, er, zm_apply]

/-! ## The activation -/

/-- 1 / (1 + exp (−score)) is the activation. -/
theorem act_apply (b : Fin 16) (n m : Fin 2048) :
    val_main_v7 (F := Ideal) x0 x1 x2 (ix3 b n m) = Cert.Attn.act x0 x1 x2 b n m := by
  rw [val_main_v7_apply, val_main_v6_apply, val_main_cst_0_apply, val_main_v5_apply, val_main_v4_apply, val_main_cst_apply,
    val_main_v3_apply, val_main_v2_apply, score_apply]
  unfold Cert.Attn.act Cert.Attn.sg
  simp only [Ideal.hostDivf_def, Ideal.ofBits_def, Ideal.ofBits_one_f32, Ideal.addf_def, Ideal.hostUnary_exp_def,
    Ideal.hostNegf_def, Ideal.negf_def]

/-! ## The column maximum -/

/-- Dropping the query axis of [16, 2048, 2048] leaves [16, 2048]. -/
theorem reduces_query : S16x2048x2048.Reduces [1] S16x2048 := by decide

/-- The reduced index (b, m) with query position k put back is (b, k, m). -/
theorem lift_query (b : Fin 16) (m : Fin 2048) (k : Fin (S16x2048x2048.size 1)) :
    reduces_query.lift (ix2 b m) k = ix3 b (⟨k.val, k.isLt⟩ : Fin 2048) m := by
  funext c; apply Fin.ext
  fin_cases c <;> rfl

/-- On the extended reals the fold of the maximum from −∞ is the supremum. -/
theorem fold_max_bot_eq_sup {ι : Type} [Fintype ι] (f : ι → EReal) :
    (Finset.univ : Finset ι).fold max ⊥ f = Finset.univ.sup f := by
  classical
  refine Finset.induction_on (Finset.univ : Finset ι) ?_ ?_
  · rw [Finset.fold_empty, Finset.sup_empty]
  · intro a s ha ih
    rw [Finset.fold_insert ha, Finset.sup_insert, ih]

/-- The pattern 0xFF800000 is −∞. -/
theorem ofBits_neg_inf_f32 : Ideal.ofBits .f32 0xFF800000#32 = (⊥ : EReal) := by
  simp [Ideal.ofBits, Ideal.ieee]

/-- The maximum-reduce over the query axis, from −∞, is the supremum of the activation over the query axis. -/
theorem reduce_max_apply (b : Fin 16) (m : Fin 2048) :
    val_main_v8 (F := Ideal) x0 x1 x2 (ix2 b m) = Finset.univ.sup fun n : Fin 2048 => Cert.Attn.act x0 x1 x2 b n m := by
  unfold val_main_v8
  rw [Host.reduce_eq_fold_single FloatOps.maximumf _ _ reducesTo_S16x2048x2048_S16x2048_d1 reduces_query h_S_]
  rw [val_main_cst_1_apply, Ideal.ofBits_def, ofBits_neg_inf_f32]
  have hf : (val_main_v7 (F := Ideal) x0 x1 x2 ∘ reduces_query.lift (ix2 b m))
      = fun n : Fin 2048 => Cert.Attn.act x0 x1 x2 b n m :=
    funext fun k => by
      show val_main_v7 (F := Ideal) x0 x1 x2 (reduces_query.lift (ix2 b m) k) = _
      rw [lift_query, act_apply]
      rfl
  rw [hf]
  exact fold_max_bot_eq_sup _

/-- The maximum of −∞ and the maximum-reduce is the column maximum. -/
theorem colmax_apply (b : Fin 16) (m : Fin 2048) :
    val_main_v10 (F := Ideal) x0 x1 x2 (ix2 b m) = Cert.Attn.colmax x0 x1 x2 b m := by
  rw [val_main_v10_apply, val_main_v9_apply, val_main_cst_2_apply, reduce_max_apply, Ideal.ofBits_def, ofBits_neg_inf_f32,
    Ideal.maximumf_def]
  unfold Cert.Attn.colmax
  exact max_eq_right bot_le

/-! ## The shifted exponential and its column sum -/

/-- The exponential of the activation minus its column maximum. -/
theorem shifted_apply (b : Fin 16) (n m : Fin 2048) :
    val_main_v14 (F := Ideal) x0 x1 x2 (ix3 b n m) = Cert.Attn.shifted x0 x1 x2 b n m := by
  rw [val_main_v14_apply, val_main_v13_apply, act_apply, val_main_v12_apply, val_main_v11_apply]
  have ei : idx_main_v11 (idx_main_v12 (ix3 b n m)) = ix2 b m :=
    funext fun a => Fin.ext (by match a with | ⟨0, _⟩ => rfl | ⟨1, _⟩ => rfl)
  rw [ei, colmax_apply]
  unfold Cert.Attn.shifted
  simp only [Ideal.hostUnary_exp_def, Ideal.subf_def]

/-- The float sum over the query axis, from zero, is the column sum of the shifted exponentials. -/
theorem denom_apply (b : Fin 16) (m : Fin 2048) :
    val_main_v15 (F := Ideal) x0 x1 x2 (ix2 b m) = ∑ n' : Fin 2048, Cert.Attn.shifted x0 x1 x2 b n' m := by
  rw [val_main_v15_apply, val_main_cst_3_apply, Ideal.ofBits_def, Ideal.ofBits_zero_f32, zero_add]
  refine Finset.sum_congr rfl fun k _ => ?_
  have ei : idx_main_v15 (ix2 b m) k = ix3 b k m :=
    funext fun a => Fin.ext (by match a with | ⟨0, _⟩ => rfl | ⟨1, _⟩ => rfl | ⟨2, _⟩ => rfl)
  rw [ei, shifted_apply]

/-! ## The result -/

/-- The reference's result at (b, n, d) is the specification's outR. -/
theorem ref_apply (b : Fin 16) (n : Fin 2048) (d : Fin 512) :
    val_main_v19 (F := Ideal) x0 x1 x2 (ix3 b n d) = Cert.Attn.outR x0 x1 x2 b n d := by
  rw [val_main_v19_apply]
  unfold Cert.Attn.outR
  refine Finset.sum_congr rfl fun m _ => ?_
  have el : lidx_main_v19 (ix3 b n d) m = ix3 b n m :=
    funext fun a => Fin.ext (by match a with | ⟨0, _⟩ => rfl | ⟨1, _⟩ => rfl | ⟨2, _⟩ => rfl)
  have er : ridx_main_v19 (ix3 b n d) m = ix3 b m d :=
    funext fun a => Fin.ext (by match a with | ⟨0, _⟩ => rfl | ⟨1, _⟩ => rfl | ⟨2, _⟩ => rfl)
  have ei : idx_main_v16 (idx_main_v17 (ix3 b n m)) = ix2 b m :=
    funext fun a => Fin.ext (by match a with | ⟨0, _⟩ => rfl | ⟨1, _⟩ => rfl)
  rw [el, er, val_main_v18_apply, shifted_apply, val_main_v17_apply, val_main_v16_apply, ei, denom_apply, Ideal.hostDivf_def]

end Cert.ReferenceIdeal.RefValue

end
-- ==== Proof.KernelRun.lean ====
/-
  The run of @main with its result named.

  @main is five segments in order: a host reshape, region 0, a host reshape, region 1, region 2. The buffer contents
  at each segment boundary are a fold from the launch memory (W0, …, W5). From any memory with zero counters every
  weakly fair execution on the TensorCores terminates, nothing faulting, and in every final state
    * the result array holds what region 2's write-backs leave of it, at region 2's entry contents;
    * each of the three argument arrays holds its launch contents.
  The boundary facts below name, array by array, what each entry contents is in terms of the boundary before.
-/
import proofs.«152962_j29918742184780_2_alg».proof.Proof.Gen.KernelIdeal.Frame
import Idealize.ShloMosaic.Lib.StableHlo.Run

-- membership in a rectangle of production extents: the elaborator's structural look recurses once per coordinate
-- of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit the result array (window 3's array of region 2) holds what the region's write-backs leave of it. -/
theorem W5_main_v4 (c : Dev nD) : W5 m ρ c (Proc.devRef .tc main_v4) = (dat2 (V4 m ρ) c).arrAt 3 cfg2.N :=
  W5_arr m ρ c 3

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result array at what region 2 leaves of it
    (from region 2's entry contents) and the three argument arrays as launched: the launch over the five segments,
    the last thread state read against the final state, the result by `W5_main_v4` and each argument by its walk
    back through the fold. -/
theorem run_main : θ_run defs (onTc (τ := τ) (main (F := F))) ⟨m, fun _ => 0, ρ⟩ (fun r => ∀ c : Dev nD,
      r.2.mem ((c.tc : Thread nD τ).loc main_v4) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v4 (by decide))).trans (W5_main_v4 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

/-! ## The boundary facts: each entry contents, array by array, in terms of the boundary before -/

/-- Region 2 enters with region 1's output array at what region 1's write-backs leave of it. -/
theorem V4_v3 (c : Dev nD) : V4 m ρ c main_v3 = (dat1 (V3 m ρ) c).arrAt 2 cfg1.N :=
  W4_arr m ρ c 2

/-- Region 1 does not write its first input array: region 2 enters with it as region 1 did. -/
theorem V4_v2 (c : Dev nD) : V4 m ρ c main_v2 = V3 m ρ c main_v2 :=
  (W4_arr m ρ c 0).trans (((dat1 (V3 m ρ) c).arrAt_in 0 rfl _).trans (A_eq1 (V3 m ρ) c 0))

/-- Region 1 enters with the second argument as launched: neither reshape and no earlier region writes it. -/
theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Region 2 enters with the second argument as launched: region 1 only reads it. -/
theorem V4_arg1 (c : Dev nD) : V4 m ρ c main_arg1 = m ((c : Thread nD τ).loc main_arg1) :=
  ((W4_arr m ρ c 1).trans (((dat1 (V3 m ρ) c).arrAt_in 1 rfl _).trans (A_eq1 (V3 m ρ) c 1))).trans (V3_arg1 m ρ c)

/-- Region 1 enters with its first input array at region 0's output array, reshaped from [32768, 512] to [16, 2048, 512]. -/
theorem V3_v2 (c : Dev nD) :
    V3 m ρ c main_v2 = shapeCast S16x2048x512 (V2 m ρ c main_v1) shapeCasts_S32768x512_S16x2048x512 := by
  dsimp only [V3, W3, hostOps1]
  after_results
  rfl

/-- Region 0 leaves its output array at what its write-backs leave of it. -/
theorem V2_v1 (c : Dev nD) : V2 m ρ c main_v1 = (dat0 (V1 m ρ) c).arrAt 2 cfg0.N :=
  W2_arr m ρ c 2

/-- Region 0 enters with its first input array at the first argument as launched, reshaped from [16, 2048, 512] to [32768, 512]. -/
theorem V1_v0 (c : Dev nD) :
    V1 m ρ c main_v0 = shapeCast S32768x512 (m ((c : Thread nD τ).loc main_arg0)) shapeCasts_S16x2048x512_S32768x512 := by
  dsimp only [V1, W1, hostOps0]
  after_results
  rfl

/-- Region 0 enters with the third argument as launched: the first reshape does not write it. -/
theorem V1_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.Run

end
-- ==== Proof.ZmValue.lean ====
import proofs.«152962_j29918742184780_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.ZmValue

open Cert.KernelIdeal Cert.KernelIdeal.Gen Idealize.ShloMosaic Idealize.ShloMosaic.TcCoe Idealize.SL.Sem
open Idealize.ShloMosaic.Pipeline (Dat)

/-!
# The first region's result: z·M, entry by entry

The first of the program's three regions multiplies the [32768, 512] array z (the [16, 2048, 512] argument with its two
leading axes flattened) by the [512, 512] array M. Its grid has 32 points; point t takes rows t · 1024 … t · 1024 + 1023 of z and
all of M, and writes the same rows of the result. On the extended reals the changes of float format are the identity and
a product accumulated onto zero is the plain sum over the contracted axis, so every entry of the result is
∑ d, z (r, d) · M (d, k), whatever the region found in the two arrays (`zm_final`). The two reshapes around the region
keep each element's row-major position (`reshape_in`, `reshape_out`).
-/

/-! ## The two host reshapes read at an index

A reshape keeps the row-major position of every element: position (b, n, d) of a [16, 2048, 512] array and
position (b · 2048 + n, d) of a [32768, 512] array are both (b · 2048 + n) · 512 + d. -/

/-- Flattening the two leading axes: row b · 2048 + n of the [32768, 512] array is row (b, n) of the [16, 2048, 512] one. -/
theorem reshape_in {α : Type} (x : S16x2048x512.Idx → α) (b : Fin 16) (n : Fin 2048) (d : Fin 512) (r : Fin 32768)
    (hr : r.val = b.val * 2048 + n.val) :
    shapeCast S32768x512 x shapeCasts_S16x2048x512_S32768x512 (ValueIdx.ix2 r d) = x (ValueIdx.ix3 b n d) := by
  refine shapeCast_apply x _ (ValueIdx.ix2 r d) (ValueIdx.ix3 b n d) ?_
  rw [Shape.rowMajor_val_three, Shape.rowMajor_val_two]
  show (b.val * 2048 + n.val) * 512 + d.val = r.val * 512 + d.val
  rw [hr]

/-- Splitting the leading axis back: row (b, n) of the [16, 2048, 512] array is row b · 2048 + n of the [32768, 512] one. -/
theorem reshape_out {α : Type} (y : S32768x512.Idx → α) (b : Fin 16) (n : Fin 2048) (d : Fin 512) (r : Fin 32768)
    (hr : r.val = b.val * 2048 + n.val) :
    shapeCast S16x2048x512 y shapeCasts_S32768x512_S16x2048x512 (ValueIdx.ix3 b n d) = y (ValueIdx.ix2 r d) := by
  refine shapeCast_apply y _ (ValueIdx.ix3 b n d) (ValueIdx.ix2 r d) ?_
  rw [Shape.rowMajor_val_three, Shape.rowMajor_val_two]
  show r.val * 512 + d.val = (b.val * 2048 + n.val) * 512 + d.val
  rw [hr]

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## One block of the product at an index -/

/-- The left operand's index at output (p, q) and contraction index k keeps the output's row, -/
theorem lhs_row (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- and its column is the contraction index; -/
theorem lhs_col (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
/-- the right operand's row is the contraction index, -/
theorem rhs_row (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
/-- and its column the output's column. -/
theorem rhs_col (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The body's value at (p, q) of its block: on the extended reals the changes of float format are the identity and the
    product accumulated onto zero is the plain sum over the contracted axis. -/
theorem pay_apply (x0 : Vec Ideal S1024x512 .f32) (x1 : Vec Ideal S512x512 .f32) (p : Fin 1024) (q : Fin 512) :
    k0_pay1 (F := Ideal) x0 x1 (ValueIdx.ix2 p q) = ∑ d : Fin 512, x0 (ValueIdx.ix2 p d) * x1 (ValueIdx.ix2 d q) := by
  unfold k0_pay1
  rw [shapeCast_self]
  rw [ValueIdx.truncf_apply]
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ValueIdx.ix2 p q) ((ValueIdx.contrEquiv1 dot_S1024x512_S512x512_S1024x512_1_0_0_1_n_n 512 rfl rfl).symm k) = ValueIdx.ix2 p k := funext fun a => Fin.ext (by
    match a with
    | ⟨0, _⟩ => exact lhs_row _ _
    | ⟨1, _⟩ => exact (lhs_col _ _).trans hk)
  have er : dot_S1024x512_S512x512_S1024x512_1_0_0_1_n_n.rhsIdx (ValueIdx.ix2 p q) ((ValueIdx.contrEquiv1 dot_S1024x512_S512x512_S1024x512_1_0_0_1_n_n 512 rfl rfl).symm k) = ValueIdx.ix2 k q := funext fun a => Fin.ext (by
    match a with
    | ⟨0, _⟩ => exact (rhs_row _ _).trans hk
    | ⟨1, _⟩ => exact rhs_col _ _)
  rw [ValueIdx.truncf_apply, ValueIdx.truncf_apply, el, er]

/-! ## From blocks to the array -/

/-- The product z·M as one function of the two arrays the region finds, entry by entry. -/
def zmArr (a0 : S32768x512.Idx → EReal) (a1 : S512x512.Idx → EReal) : S32768x512.Idx → EReal :=
  fun i => ∑ d : Fin 512, a0 (ValueIdx.ix2 (i 0 : Fin 32768) d) * a1 (ValueIdx.ix2 d (i 1 : Fin 512))

theorem zmArr_apply (a0 : S32768x512.Idx → EReal) (a1 : S512x512.Idx → EReal) (r : Fin 32768) (k : Fin 512) :
    zmArr a0 a1 (ValueIdx.ix2 r k) = ∑ d : Fin 512, a0 (ValueIdx.ix2 r d) * a1 (ValueIdx.ix2 d k) := rfl

/-- A block of 1024 rows whose rows are rows of a0 and whose right factor is a1 gives the same rows of the product. -/
theorem blk_point (x0 : Vec Ideal S1024x512 .f32) (x1 : Vec Ideal S512x512 .f32)
    (a0 : S32768x512.Idx → EReal) (a1 : S512x512.Idx → EReal) (p : Fin 1024) (q : Fin 512) (r : Fin 32768) (k : Fin 512)
    (h0 : ∀ d : Fin 512, x0 (ValueIdx.ix2 p d) = a0 (ValueIdx.ix2 r d))
    (h1 : ∀ d : Fin 512, x1 (ValueIdx.ix2 d q) = a1 (ValueIdx.ix2 d k)) :
    k0_pay1 (F := Ideal) x0 x1 (ValueIdx.ix2 p q) = zmArr a0 a1 (ValueIdx.ix2 r k) := by
  rw [pay_apply, zmArr_apply]
  exact Finset.sum_congr rfl fun d _ => by rw [h0 d, h1 d]

/-- The index maps over the grid: point t takes row block t of the left factor and of the result, and the whole right factor. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of the left factor is row t · 1024 + p of the array. -/
theorem lhs_block (t : Fin cfg0.N) (p : Fin 1024) (d : Fin 512) (r : Fin 32768) (hr : r.val = t.val * 1024 + p.val) :
    (iblk0 V c 0 t : Vec Ideal S1024x512 .f32) (ValueIdx.ix2 p d) = (V c main_v0 : S32768x512.Idx → EReal) (ValueIdx.ix2 r d) := by
  obtain ⟨e0, e1, -⟩ := idx_facts t
  unfold iblk0
  show V c main_v0 (((cfg0.win 0).blk t).view.emb (ValueIdx.ix2 p d)) = V c main_v0 (ValueIdx.ix2 r d)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 512 + 1 * d.val = d.val; omega

/-- Every point's block of the right factor is the whole array. -/
theorem rhs_block (t : Fin cfg0.N) (d : Fin 512) (q : Fin 512) :
    (iblk0 V c 1 t : Vec Ideal S512x512 .f32) (ValueIdx.ix2 d q) = (V c main_arg2 : S512x512.Idx → EReal) (ValueIdx.ix2 d q) := by
  obtain ⟨-, -, e0, e1, -⟩ := idx_facts t
  unfold iblk0
  show V c main_arg2 (((cfg0.win 1).blk t).view.emb (ValueIdx.ix2 d q)) = V c main_arg2 (ValueIdx.ix2 d q)
  refine congrArg (V c main_arg2) (funext fun a => Fin.ext ?_)
  match a with
  | ⟨0, _⟩ => show win0_1.index t (0 : Fin 2) * 512 + 1 * d.val = d.val; omega
  | ⟨1, _⟩ => show win0_1.index t (1 : Fin 2) * 512 + 1 * q.val = q.val; omega

/-- Position (p, q) of point t's block of the result is position (t · 1024 + p, q) of the array. -/
theorem out_block (t : Fin cfg0.N) (p : Fin 1024) (q : Fin 512) (r : Fin 32768) (hr : r.val = t.val * 1024 + p.val) :
    (((cfg0.win 2).blk t).view.emb (ValueIdx.ix2 p q) : S32768x512.Idx) = ValueIdx.ix2 r q := by
  obtain ⟨-, -, -, -, e0, e1⟩ := idx_facts t
  funext a; apply Fin.ext
  match a with
  | ⟨0, _⟩ => show win0_2.index t (0 : Fin 2) * 1024 + 1 * p.val = r.val; omega
  | ⟨1, _⟩ => show win0_2.index t (1 : Fin 2) * 512 + 1 * q.val = q.val; omega

/-- What point t writes back is block t of the product of the two arrays as the region finds them. -/
theorem flushed_eq (t : Fin cfg0.N) :
    (dat0 (F := Ideal) V c).flushed 2 t = ((cfg0.win 2).blk t).view.read (Elt Ideal) (zmArr (V c main_v0) (V c main_arg2)) := by
  show (cfg0.win 2).cut (grid0.coords t) ((dat0 V c).after 2 t) = _
  rw [after0_2]
  unfold out0_2
  rw [View.canon_unit_zero hz]
  simp only [View.ld_unit_zero (S := S1024x512) hz, View.ld_unit_zero (S := S512x512) hz]
  funext j
  obtain ⟨p, q, rfl⟩ : ∃ (p : Fin 1024) (q : Fin 512), j = ValueIdx.ix2 p q := ⟨j 0, j 1, ValueIdx.eq_ix2 j⟩
  have hN : grid0.N = 32 := N_0
  have ht : t.val < grid0.N := t.isLt
  obtain ⟨r, hr⟩ : ∃ r : Fin 32768, r.val = t.val * 1024 + p.val := ⟨⟨t.val * 1024 + p.val, by have := p.isLt; omega⟩, rfl⟩
  show k0_pay1 (F := Ideal) (iblk0 V c 0 t) (iblk0 V c 1 t) (ValueIdx.ix2 p q)
    = zmArr (V c main_v0) (V c main_arg2) (((cfg0.win 2).blk t).view.emb (ValueIdx.ix2 p q))
  rw [out_block t p q r hr]
  exact blk_point _ _ _ _ p q r q (fun d => lhs_block V c t p d r hr) (fun d => rhs_block V c t d q)

/-- An entry of the result array is in point t's block iff each coordinate is in the block's range on its axis. -/
theorem mem_blk (t : Fin cfg0.N) (i : S32768x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1).slice (win0_2.rect t)).set ↔ _
  rw [View.set_slice_whole, Rect.mem_set_unit]
  exact Iff.rfl

/-- The blocks cover the result: row r lies in the block of point r / 1024. -/
theorem covered (i : S32768x512.Idx) : ∃ t : Fin cfg0.N, (cfg0.win 2).flush t = true ∧ i ∈ ((cfg0.win 2).blk t).view.set := by
  have hN : grid0.N = 32 := N_0
  have hi0 : (i 0).val < 32768 := (i 0).isLt
  have hi1 : (i 1).val < 512 := (i 1).isLt
  obtain ⟨t, ht⟩ : ∃ t : Fin cfg0.N, t.val = (i 0).val / 1024 := ⟨⟨(i 0).val / 1024, by show _ < grid0.N; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- After the region the result array holds the product z·M of the two arrays the region found. -/
theorem zm_arr : (dat0 (F := Ideal) V c).arrAt 2 cfg0.N = zmArr (V c main_v0) (V c main_arg2) :=
  (dat0 V c).arrAt_eq_of_cover 2 (zmArr (V c main_v0) (V c main_arg2)) (fun t _ => flushed_eq V c t) covered

/-- Entry (r, k) of the result array is ∑ d, z (r, d) · M (d, k), for z and M the two arrays the region finds. -/
theorem zm_final (a0 : S32768x512.Idx → EReal) (a1 : S512x512.Idx → EReal) (h0 : V c main_v0 = a0) (h1 : V c main_arg2 = a1)
    (r : Fin 32768) (k : Fin 512) :
    (dat0 (F := Ideal) V c).arrAt 2 cfg0.N (ValueIdx.ix2 r k) = ∑ d : Fin 512, a0 (ValueIdx.ix2 r d) * a1 (ValueIdx.ix2 d k) := by
  subst h0 h1
  rw [zm_arr]
  rfl

/-- The same with the result array too named as a function into the extended reals. -/
theorem zm_final_typed (x0 : S32768x512.Idx → EReal) (x1 : S512x512.Idx → EReal) (out : S32768x512.Idx → EReal)
    (h0 : x0 = V c main_v0) (h1 : x1 = V c main_arg2) (ho : out = (dat0 (F := Ideal) V c).arrAt 2 cfg0.N)
    (r : Fin 32768) (k : Fin 512) :
    out (ValueIdx.ix2 r k) = ∑ d : Fin 512, x0 (ValueIdx.ix2 r d) * x1 (ValueIdx.ix2 d k) := by
  subst h0 h1 ho
  exact zm_final V c _ _ rfl rfl r k

end Cert.KernelIdeal.ZmValue

end
-- ==== Proof.Pieces.lean ====
/-
  What each case of the two accumulating kernel bodies leaves in its output block, as the body's arithmetic applied to
  the blocks it loaded: at the first point of a group the zero block is stored and read back before the sum is added;
  at the other points the running block is read.
-/
import proofs.«152962_j29918742184780_2_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- Column-sum body, a later point of a group: the running row xo plus this block's column sums. -/
theorem colsum_piece_B (c : Dev nD) (i : grid1.Coords) (a3 : Memref sig .tc .vmem S1x512x512 .bf16) (h3 : a3.IsWhole)
    (a4 : Memref sig .tc .vmem S1x512x512 .f32) (h4 : a4.IsWhole) (a5 : Memref sig .tc .vmem S1x1x512 .f32) (h5 : a5.IsWhole)
    (hc : ¬cond1_0 i) (x0 : Vec F S1x512x512 .bf16) (x1 : Vec F S1x512x512 .f32) (xo : Vec F S1x1x512 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz3]
  simp only [View.readAt_eq_ld, h3.read_unread, h4.read_unread, h5.read_unread, View.ld_unit_zero (S := S1x512x512) hz3,
    View.ld_unit_zero (S := S1x1x512) hz3]

/-- Column-sum body, the first point of a group: the zero row plus this block's column sums. -/
theorem colsum_piece_A (c : Dev nD) (i : grid1.Coords) (a3 : Memref sig .tc .vmem S1x512x512 .bf16) (h3 : a3.IsWhole)
    (a4 : Memref sig .tc .vmem S1x512x512 .f32) (h4 : a4.IsWhole) (a5 : Memref sig .tc .vmem S1x1x512 .f32) (h5 : a5.IsWhole)
    (hc : cond1_0 i) (x0 : Vec F S1x512x512 .bf16) (x1 : Vec F S1x512x512 .f32) :
    out1_A_2 c i a3 h3 a4 h4 a5 h5 hc x0 x1 = k1_pay2 x0 x1 k1_pay1 := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S1x1x512) hz3, View.readCov_unit_zero (S := S1x1x512) _ hz3]
  simp only [View.readAt_eq_ld, h3.read_unread, h4.read_unread, View.ld_unit_zero (S := S1x512x512) hz3,
    View.ld_unit_zero (S := S1x1x512) hz3]

/-- Output body, a later point of a group: the running block xo plus this block's weighted product. -/
theorem out_piece_B (c : Dev nD) (i : grid2.Coords) (a3 : Memref sig .tc .vmem S1x512x512 .bf16) (h3 : a3.IsWhole)
    (a4 : Memref sig .tc .vmem S1x512x512 .f32) (h4 : a4.IsWhole) (a5 : Memref sig .tc .vmem S1x1x512 .f32) (h5 : a5.IsWhole)
    (a6 : Memref sig .tc .vmem S1x512x512 .f32) (h6 : a6.IsWhole)
    (hc : ¬cond2_0 i) (x0 : Vec F S1x512x512 .bf16) (x1 : Vec F S1x512x512 .f32) (x2 : Vec F S1x1x512 .f32) (xo : Vec F S1x512x512 .f32) :
    out2_B_3 c i a3 h3 a4 h4 a5 h5 a6 h6 hc x0 x1 x2 xo = k2_pay2 x0 x1 x2 xo := by
  unfold out2_B_3
  rw [View.read_writes_eq_canon _ _ _ (cover2_B_3 c i a3 h3 a4 h4 a5 h5 a6 h6 hc x0 x1 x2 xo)]
  unfold kernelRun2_B
  dsimp only
  rw [View.canon_unit_zero hz3]
  simp only [View.readAt_eq_ld, h3.read_unread, h4.read_unread, h5.read_unread, h6.read_unread, View.ld_unit_zero (S := S1x512x512) hz3,
    View.ld_unit_zero (S := S1x1x512) hz3]

/-- Output body, the first point of a group: the zero block plus this block's weighted product. -/
theorem out_piece_A (c : Dev nD) (i : grid2.Coords) (a3 : Memref sig .tc .vmem S1x512x512 .bf16) (h3 : a3.IsWhole)
    (a4 : Memref sig .tc .vmem S1x512x512 .f32) (h4 : a4.IsWhole) (a5 : Memref sig .tc .vmem S1x1x512 .f32) (h5 : a5.IsWhole)
    (a6 : Memref sig .tc .vmem S1x512x512 .f32) (h6 : a6.IsWhole)
    (hc : cond2_0 i) (x0 : Vec F S1x512x512 .bf16) (x1 : Vec F S1x512x512 .f32) (x2 : Vec F S1x1x512 .f32) :
    out2_A_3 c i a3 h3 a4 h4 a5 h5 a6 h6 hc x0 x1 x2 = k2_pay2 x0 x1 x2 k2_pay1 := by
  unfold out2_A_3
  rw [View.read_writes_eq_canon _ _ _ (cover2_A_3 c i a3 h3 a4 h4 a5 h5 a6 h6 hc x0 x1 x2)]
  unfold kernelRun2_A
  dsimp only
  sl_unfold_words
  rw [View.canon_cons_unit_zero (S := S1x512x512) hz3, View.readCov_unit_zero (S := S1x512x512) _ hz3]
  simp only [View.readAt_eq_ld, h3.read_unread, h4.read_unread, h5.read_unread, View.ld_unit_zero (S := S1x512x512) hz3,
    View.ld_unit_zero (S := S1x1x512) hz3]

end Cert.KernelIdeal.Body

end
-- ==== Proof.Payload.lean ====
/-
  The two accumulating kernel bodies, read at an index on the extended reals.

  Both bodies compute, from a [512, 512] block x0 of z·M (rows r, features d) and a [512, 512] block x1 of e
  (rows j, features d), the matrix  P r j = exp (sg (∑ d, x0 r d · x1 j d)),  sg the logistic function.
  The column-sum body adds to the running row  xo j  the column sum  ∑ r, P r j.
  The output body adds to the running block  xo r d  the product  ∑ j, (P r j · (1 / xz j)) · x1 j d,
  xz the row of column sums.
-/
import proofs.«152962_j29918742184780_2_alg».proof.Proof.Spec
import proofs.«152962_j29918742184780_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Body

open Idealize.ShloMosaic Idealize.ShloMosaic.ValueIdx
open Cert.KernelIdeal Cert.KernelIdeal.Gen Cert.Attn

/-- The score of row r of the z·M block against row j of the e block. -/
def scoreBlk (x0 : FVec Ideal S1x512x512 .bf16) (x1 : FVec Ideal S1x512x512 .f32) (r j : Fin 512) : EReal :=
  ∑ d : Fin 512, x0 (ix3 (0 : Fin 1) r d) * x1 (ix3 (0 : Fin 1) j d)

theorem mm_lhs0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mm_rhs1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A [512, 512] product with the contraction over the left operand's columns and the right operand's rows, onto a zero
    accumulator, is the plain sum of products. -/
theorem mm_apply {φ₁ φ₂ : FTy} (l : FVec Ideal S512x512 φ₁) (r : FVec Ideal S512x512 φ₂) (p q : Fin 512) :
    matmul dot_S512x512_S512x512_S512x512_1_0_0_1_n_n none l r (constant S512x512 .f32 0x00000000#32) (ix2 p q)
      = ∑ k : Fin 512, l (ix2 p k) * r (ix2 k q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k :=
    funext fun a => Fin.ext (by
      match a with
      | ⟨0, _⟩ => exact mm_lhs0 _ _
      | ⟨1, _⟩ => exact (dot_S512x512_S512x512_S512x512_1_0_0_1_n_n.lhsIdx_val_of_single rfl _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q :=
    funext fun a => Fin.ext (by
      match a with
      | ⟨0, _⟩ => exact (dot_S512x512_S512x512_S512x512_1_0_0_1_n_n.rhsIdx_val_of_single rfl _ _).trans hk
      | ⟨1, _⟩ => exact mm_rhs1 _ _)
  rw [el, er]

/-- The matrix P as both bodies compute it: the exponential of the logistic function of the block score. -/
def pmat (x0 : FVec Ideal S1x512x512 .bf16) (x1 : FVec Ideal S1x512x512 .f32) : FVec Ideal S512x512 .f32 :=
  exp (divf (broadcast S512x512 (Scalar.ofBits (F := Ideal) .f32 0x3F800000#32))
    (addf (broadcast S512x512 (Scalar.ofBits (F := Ideal) .f32 0x3F800000#32))
      (exp (subf (broadcast S512x512 (Scalar.ofBits (F := Ideal) .f32 0x00000000#32))
        (matmul dot_S512x512_S512x512_S512x512_1_0_0_1_n_n none
          (shapeCast S512x512 x0 shapeCasts_S1x512x512_S512x512)
          (transpose S512x512 [1, 0] (truncf .bf16 (shapeCast S512x512 x1 shapeCasts_S1x512x512_S512x512) bitsLt_bf16_f32)
            transposes_S512x512_p1_0_S512x512)
          (constant S512x512 .f32 0x00000000#32))))))

/-- The block score is what the bodies' first product computes. -/
theorem score_apply (x0 : FVec Ideal S1x512x512 .bf16) (x1 : FVec Ideal S1x512x512 .f32) (r j : Fin 512) :
    matmul dot_S512x512_S512x512_S512x512_1_0_0_1_n_n none
        (shapeCast S512x512 x0 shapeCasts_S1x512x512_S512x512)
        (transpose S512x512 [1, 0] (truncf .bf16 (shapeCast S512x512 x1 shapeCasts_S1x512x512_S512x512) bitsLt_bf16_f32)
          transposes_S512x512_p1_0_S512x512)
        (constant S512x512 .f32 0x00000000#32) (ix2 r j)
      = scoreBlk x0 x1 r j := by
  rw [mm_apply]
  unfold scoreBlk
  refine Finset.sum_congr rfl fun d _ => ?_
  rw [shapeCast_1ab_ab_apply, transpose_ix2_apply]
  show _ * shapeCast S512x512 x1 shapeCasts_S1x512x512_S512x512 (ix2 j d) = _
  rw [shapeCast_1ab_ab_apply]

/-- P at (r, j). -/
theorem pmat_apply (x0 : FVec Ideal S1x512x512 .bf16) (x1 : FVec Ideal S1x512x512 .f32) (r j : Fin 512) :
    pmat x0 x1 (ix2 r j) = Ideal.exp (sg (scoreBlk x0 x1 r j)) := by
  show Ideal.exp (Ideal.div (Ideal.ofBits .f32 0x3F800000#32) (Ideal.ofBits .f32 0x3F800000#32 + Ideal.exp (Ideal.ofBits .f32 0x00000000#32 - _))) = _
  rw [score_apply, Ideal.ofBits_one_f32, Ideal.ofBits_zero_f32, zero_sub]
  rfl

/-- A sum over the rows of a [512, 512] matrix, column by column. -/
theorem rowsum_apply (src : FVec Ideal S512x512 .f32) (hφ : FKind.Formats .f32) (hacc : (0x00000000#32 : BitVec 32) = 0x00000000#32) (j : Fin 512) :
    multiReduction .add [0] S512 src 0x00000000#32 reduces_S512x512_S512 hφ hacc (ix1 j) = ∑ r : Fin 512, src (ix2 r j) := by
  refine (Ideal.multiReduction_add_single src 0x00000000#32 reduces_S512x512_S512 hφ hacc (ix1 j)).trans ?_
  refine Finset.sum_congr rfl fun r _ => congrArg src ?_
  exact funext fun a => Fin.ext (by match a with | ⟨0, _⟩ => rfl | ⟨1, _⟩ => rfl)

/-- The column-sum body's arithmetic over P. -/
theorem colsum_pay_eq (x0 : FVec Ideal S1x512x512 .bf16) (x1 : FVec Ideal S1x512x512 .f32) (xo : FVec Ideal S1x1x512 .f32) :
    k1_pay2 (F := Ideal) x0 x1 xo
      = shapeCast S1x1x512 (addf (shapeCast S1x512 xo shapeCasts_S1x1x512_S1x512)
          (shapeCast S1x512 (multiReduction .add [0] S512 (pmat x0 x1) 0x00000000#32 reduces_S512x512_S512 (.inl rfl) rfl) shapeCasts_S512_S1x512))
          shapeCasts_S1x512_S1x1x512 := rfl

/-- The column-sum body at column j: the running value plus the column sum of P. -/
theorem colsum_pay_apply (x0 : FVec Ideal S1x512x512 .bf16) (x1 : FVec Ideal S1x512x512 .f32) (xo : FVec Ideal S1x1x512 .f32) (j : Fin 512) :
    k1_pay2 (F := Ideal) x0 x1 xo (ix3 (0 : Fin 1) (0 : Fin 1) j)
      = xo (ix3 (0 : Fin 1) (0 : Fin 1) j) + ∑ r : Fin 512, Ideal.exp (sg (scoreBlk x0 x1 r j)) := by
  rw [colsum_pay_eq, shapeCast_ab_1ab_apply]
  show shapeCast S1x512 xo shapeCasts_S1x1x512_S1x512 (ix2 (0 : Fin 1) j) + shapeCast S1x512 _ shapeCasts_S512_S1x512 (ix2 (0 : Fin 1) j) = _
  rw [shapeCast_1ab_ab_apply, shapeCast_a_1a_apply, rowsum_apply]
  refine congrArg (_ + ·) (Finset.sum_congr rfl fun r _ => ?_)
  exact pmat_apply x0 x1 r j

/-- The zero row the column-sum body stores at the first point of a group. -/
theorem colsum_zero_apply (j : Fin 512) : k1_pay1 (F := Ideal) (ix3 (0 : Fin 1) (0 : Fin 1) j) = 0 := by
  show shapeCast S1x1x512 (broadcast S1x512 (Scalar.ofBits (F := Ideal) .f32 0x00000000#32)) shapeCasts_S1x512_S1x1x512 (ix3 (0 : Fin 1) (0 : Fin 1) j) = 0
  rw [shapeCast_ab_1ab_apply]
  exact Ideal.ofBits_zero_f32

/-- The output body's arithmetic over P. -/
theorem out_pay_eq (x0 : FVec Ideal S1x512x512 .bf16) (x1 : FVec Ideal S1x512x512 .f32) (xz : FVec Ideal S1x1x512 .f32) (xo : FVec Ideal S1x512x512 .f32) :
    k2_pay2 (F := Ideal) x0 x1 xz xo
      = shapeCast S1x512x512 (addf (shapeCast S512x512 xo shapeCasts_S1x512x512_S512x512)
          (matmul dot_S512x512_S512x512_S512x512_1_0_0_1_n_n none
            (truncf .bf16 (mulf (pmat x0 x1)
              (broadcastTo S512x512 (divf (broadcast S1x512 (Scalar.ofBits (F := Ideal) .f32 0x3F800000#32)) (shapeCast S1x512 xz shapeCasts_S1x1x512_S1x512))
                broadcasts_S1x512_S512x512)) bitsLt_bf16_f32)
            (truncf .bf16 (shapeCast S512x512 x1 shapeCasts_S1x512x512_S512x512) bitsLt_bf16_f32)
            (constant S512x512 .f32 0x00000000#32)))
          shapeCasts_S512x512_S1x512x512 := rfl

/-- The output body at (r, d): the running value plus the product of P, scaled column by column by the reciprocal of the column
    sums, with the e block. -/
theorem out_pay_apply (x0 : FVec Ideal S1x512x512 .bf16) (x1 : FVec Ideal S1x512x512 .f32) (xz : FVec Ideal S1x1x512 .f32) (xo : FVec Ideal S1x512x512 .f32) (r d : Fin 512) :
    k2_pay2 (F := Ideal) x0 x1 xz xo (ix3 (0 : Fin 1) r d)
      = xo (ix3 (0 : Fin 1) r d)
        + ∑ j : Fin 512, (Ideal.exp (sg (scoreBlk x0 x1 r j)) * Ideal.div 1 (xz (ix3 (0 : Fin 1) (0 : Fin 1) j))) * x1 (ix3 (0 : Fin 1) j d) := by
  rw [out_pay_eq, shapeCast_ab_1ab_apply]
  show shapeCast S512x512 xo shapeCasts_S1x512x512_S512x512 (ix2 r d) + matmul dot_S512x512_S512x512_S512x512_1_0_0_1_n_n none _ _ _ (ix2 r d) = _
  rw [shapeCast_1ab_ab_apply, mm_apply]
  refine congrArg (_ + ·) (Finset.sum_congr rfl fun j _ => ?_)
  show (pmat x0 x1 (ix2 r j) * broadcastTo S512x512 _ broadcasts_S1x512_S512x512 (ix2 r j)) * shapeCast S512x512 x1 shapeCasts_S1x512x512_S512x512 (ix2 j d) = _
  rw [pmat_apply, broadcastTo_1b_ab_apply, shapeCast_1ab_ab_apply]
  show _ * Ideal.div (Ideal.ofBits .f32 0x3F800000#32) (shapeCast S1x512 xz shapeCasts_S1x1x512_S1x512 (ix2 (0 : Fin 1) j)) * _ = _
  rw [Ideal.ofBits_one_f32, shapeCast_1ab_ab_apply]

/-- The zero block the output body stores at the first point of a group. -/
theorem out_zero_apply (r d : Fin 512) : k2_pay1 (F := Ideal) (ix3 (0 : Fin 1) r d) = 0 := by
  show shapeCast S1x512x512 (broadcast S512x512 (Scalar.ofBits (F := Ideal) .f32 0x00000000#32)) shapeCasts_S512x512_S1x512x512 (ix3 (0 : Fin 1) r d) = 0
  rw [shapeCast_ab_1ab_apply]
  exact Ideal.ofBits_zero_f32

end Cert.KernelIdeal.Body

end
-- ==== Proof.ColSumValue.lean ====
/-
  The column sums the second kernel region leaves, read entry by entry on the extended reals.

  The region runs over a 16 × 4 × 4 grid of points (b, mt, nt), numbered t = 16 b + 4 mt + nt. At a point it holds the
  512 rows nt · 512 … nt · 512 + 511 of batch b of z·M, the 512 rows mt · 512 … mt · 512 + 511 of batch b of e, and a
  running row of 512 entries, one per key row of the e block. The body adds to entry j of the running row the sum over
  the z·M block's rows r of  exp (sg (∑ d, (z·M) r d · e j d)),  sg the logistic function; the running row is reset at
  nt = 0 and written back to positions (b, 0, mt · 512 + j) of the result after nt = 3.

  Hence, by induction over the four points of a group, the row written back holds the sum over all four query blocks,
  that is over all 2048 query rows; the blocks written back tile the result, so the result at (b, 0, m) is
    ∑ n, exp (sg (∑ d, (z·M) b n d · e b m d)).
-/
import proofs.«152962_j29918742184780_2_alg».proof.Proof.Spec
import proofs.«152962_j29918742184780_2_alg».proof.Proof.Algebra
import proofs.«152962_j29918742184780_2_alg».proof.Proof.Pieces
import proofs.«152962_j29918742184780_2_alg».proof.Proof.Payload
import proofs.«152962_j29918742184780_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.ColSum

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open Cert.Attn (sg at4 sum_at4)

variable (V : (c : Dev nD) → (b : Ref sig .tc) → Buf (Elt Ideal) ((c : Thread nD τ).loc b)) (c : Dev nD)

/-! ## The grid -/

/-- Point t of the 16 × 4 × 4 grid is (b, mt, nt) with t = 16 b + 4 mt + nt; the z·M window sits at block (b, nt, 0),
    the e window at block (b, mt, 0), the column-sum window at block (b, 0, mt). -/
theorem idx_facts : ∀ t : Fin cfg1.N,
    win1_0.index t (0 : Fin 3) = t.val / 16 ∧ win1_0.index t (1 : Fin 3) = t.val % 4 ∧ win1_0.index t (2 : Fin 3) = 0
    ∧ win1_1.index t (0 : Fin 3) = t.val / 16 ∧ win1_1.index t (1 : Fin 3) = t.val / 4 % 4 ∧ win1_1.index t (2 : Fin 3) = 0
    ∧ win1_2.index t (0 : Fin 3) = t.val / 16 ∧ win1_2.index t (1 : Fin 3) = 0 ∧ win1_2.index t (2 : Fin 3) = t.val / 4 % 4 :=
  (by decide +kernel : ∀ t : Fin grid1.N, _)

/-! ## The summand -/

/-- The exponential of the logistic function of the score of query row n against key row m in batch b. -/
def term (zm e : S16x2048x512.Idx → EReal) (b : Fin 16) (n m : Fin 2048) : EReal :=
  Ideal.exp (sg (∑ d : Fin 512, zm (ix3 b n d) * e (ix3 b m d)))

/-! ## The input blocks -/

/-- At point (b, mt, nt) the z·M block is rows nt · 512 … nt · 512 + 511 of batch b. -/
theorem blk0_apply (t : Fin cfg1.N) (b : Fin 16) (mt nt : Fin 4) (ht : t.val = b.val * 16 + mt.val * 4 + nt.val) (r d : Fin 512) :
    (iblk1 V c 0 t : Vec Ideal S1x512x512 .bf16) (ix3 (0 : Fin 1) r d) = V c main_v2 (ix3 b (at4 nt r) d) := by
  obtain ⟨e0, e1, e2, -⟩ := idx_facts t
  have hb := b.isLt; have hm := mt.isLt; have hn := nt.isLt
  unfold iblk1
  rw [View.read_apply]
  show V c main_v2 _ = V c main_v2 _
  congr 1
  funext a
  apply Fin.ext
  match a with
  | ⟨0, _⟩ => show win1_0.index t 0 * 1 + 1 * 0 = b.val; rw [e0, ht]; omega
  | ⟨1, _⟩ => show win1_0.index t 1 * 512 + 1 * r.val = nt.val * 512 + r.val; rw [e1, ht]; omega
  | ⟨2, _⟩ => show win1_0.index t 2 * 512 + 1 * d.val = d.val; rw [e2]; omega

/-- At point (b, mt, nt) the e block is rows mt · 512 … mt · 512 + 511 of batch b. -/
theorem blk1_apply (t : Fin cfg1.N) (b : Fin 16) (mt nt : Fin 4) (ht : t.val = b.val * 16 + mt.val * 4 + nt.val) (j d : Fin 512) :
    (iblk1 V c 1 t : Vec Ideal S1x512x512 .f32) (ix3 (0 : Fin 1) j d) = V c main_arg1 (ix3 b (at4 mt j) d) := by
  obtain ⟨-, -, -, e0, e1, e2, -⟩ := idx_facts t
  have hb := b.isLt; have hm := mt.isLt; have hn := nt.isLt
  unfold iblk1
  rw [View.read_apply]
  show V c main_arg1 _ = V c main_arg1 _
  congr 1
  funext a
  apply Fin.ext
  match a with
  | ⟨0, _⟩ => show win1_1.index t 0 * 1 + 1 * 0 = b.val; rw [e0, ht]; omega
  | ⟨1, _⟩ => show win1_1.index t 1 * 512 + 1 * j.val = mt.val * 512 + j.val; rw [e1, ht]; omega
  | ⟨2, _⟩ => show win1_1.index t 2 * 512 + 1 * d.val = d.val; rw [e2]; omega

/-- So the block's column sum at column j is the sum of the summand over the block's 512 query rows. -/
theorem rowsum_eq (t : Fin cfg1.N) (b : Fin 16) (mt nt : Fin 4) (ht : t.val = b.val * 16 + mt.val * 4 + nt.val) (j : Fin 512) :
    ∑ r : Fin 512, Ideal.exp (sg (scoreBlk (iblk1 V c 0 t) (iblk1 V c 1 t) r j))
      = ∑ r : Fin 512, term (V c main_v2) (V c main_arg1) b (at4 nt r) (at4 mt j) := by
  refine Finset.sum_congr rfl fun r _ => ?_
  unfold scoreBlk term
  refine congrArg (fun s => Ideal.exp (sg s)) (Finset.sum_congr rfl fun d _ => ?_)
  rw [blk0_apply V c t b mt nt ht r d, blk1_apply V c t b mt nt ht j d]

/-! ## One point's contribution -/

/-- The body on a zero running row leaves the block's column sums. -/
theorem payA (x0 : FVec Ideal S1x512x512 .bf16) (x1 : FVec Ideal S1x512x512 .f32) (j : Fin 512) :
    k1_pay2 (F := Ideal) x0 x1 (k1_pay1 (F := Ideal)) (ix3 (0 : Fin 1) (0 : Fin 1) j)
      = ∑ r : Fin 512, Ideal.exp (sg (scoreBlk x0 x1 r j)) := by
  rw [colsum_pay_apply, colsum_zero_apply, zero_add]

/-- At the first point of a group of four the running row is reset: the block's column sums alone. -/
theorem stepA (t : Fin cfg1.N) (h0 : t.val % 4 = 0) (j : Fin 512) :
    outsAt1 V c t.val t.isLt (ix3 (0 : Fin 1) (0 : Fin 1) j)
      = ∑ r : Fin 512, Ideal.exp (sg (scoreBlk (iblk1 V c 0 t) (iblk1 V c 1 t) r j)) := by
  rw [outsAt1_A V c t h0,
    colsum_piece_A c (grid1.coords t) (ms1_0 t) (hs1_0 t) (ms1_1 t) (hs1_1 t) (ms1_2 t) (hs1_2 t) ((hcond1_0 t).mpr h0)
      (iblk1 V c 0 t) (iblk1 V c 1 t)]
  exact payA (iblk1 V c 0 t) (iblk1 V c 1 t) j

/-- At a later point of a group the block's column sums are added to what the point before left. -/
theorem stepB (t : Fin cfg1.N) (h0 : ¬t.val % 4 = 0) (j : Fin 512) :
    outsAt1 V c t.val t.isLt (ix3 (0 : Fin 1) (0 : Fin 1) j)
      = outsAt1 V c (t.val - 1) (Nat.lt_of_le_of_lt (Nat.sub_le _ _) t.isLt) (ix3 (0 : Fin 1) (0 : Fin 1) j)
        + ∑ r : Fin 512, Ideal.exp (sg (scoreBlk (iblk1 V c 0 t) (iblk1 V c 1 t) r j)) := by
  rw [outsAt1_B V c t h0,
    colsum_piece_B c (grid1.coords t) (ms1_0 t) (hs1_0 t) (ms1_1 t) (hs1_1 t) (ms1_2 t) (hs1_2 t) (fun h => h0 ((hcond1_0 t).mp h))
      (iblk1 V c 0 t) (iblk1 V c 1 t) (outsAt1 V c (t.val - 1) (Nat.lt_of_le_of_lt (Nat.sub_le _ _) t.isLt))]
  exact colsum_pay_apply (iblk1 V c 0 t) (iblk1 V c 1 t) (outsAt1 V c (t.val - 1) (Nat.lt_of_le_of_lt (Nat.sub_le _ _) t.isLt)) j

/-! ## The running row within a group -/

/-- The sum of the summand over query block q (rows q · 512 … q · 512 + 511); zero for q ≥ 4. -/
def blockSum (zm e : S16x2048x512.Idx → EReal) (b : Fin 16) (m : Fin 2048) (q : ℕ) : EReal :=
  if hq : q < 4 then ∑ r : Fin 512, term zm e b (at4 ⟨q, hq⟩ r) m else 0

/-- The running row does not depend on how the point's number is written. -/
theorem outsAt1_congr {n n' : ℕ} (e : n = n') (hn : n < cfg1.N) (hn' : n' < cfg1.N) : outsAt1 V c n hn = outsAt1 V c n' hn' := by
  subst e; rfl

/-- After point (b, mt, k) the running row holds, at column j, the sum over the query blocks 0 … k of the summand against
    key row mt · 512 + j: by induction on k, the first point resetting and each later one adding its block. -/
theorem outsAt_eq (b : Fin 16) (mt : Fin 4) (j : Fin 512) : ∀ (k : ℕ) (hk : k < 4) (hn : b.val * 16 + mt.val * 4 + k < cfg1.N),
    outsAt1 V c (b.val * 16 + mt.val * 4 + k) hn (ix3 (0 : Fin 1) (0 : Fin 1) j)
      = ∑ q ∈ Finset.range (k + 1), blockSum (V c main_v2) (V c main_arg1) b (at4 mt j) q
  | 0, hk, hn => by
    have hm := mt.isLt
    rw [Finset.sum_range_one]
    refine (stepA V c ⟨b.val * 16 + mt.val * 4 + 0, hn⟩ (by show (b.val * 16 + mt.val * 4 + 0) % 4 = 0; omega) j).trans ?_
    rw [rowsum_eq V c ⟨b.val * 16 + mt.val * 4 + 0, hn⟩ b mt ⟨0, hk⟩ rfl j]
    unfold blockSum
    rw [dif_pos hk]
  | k + 1, hk, hn => by
    have hm := mt.isLt
    have hn' : b.val * 16 + mt.val * 4 + k < cfg1.N := Nat.lt_of_succ_lt hn
    rw [Finset.sum_range_succ, ← outsAt_eq b mt j k (Nat.lt_of_succ_lt hk) hn']
    refine (stepB V c ⟨b.val * 16 + mt.val * 4 + (k + 1), hn⟩ (by show ¬(b.val * 16 + mt.val * 4 + (k + 1)) % 4 = 0; omega) j).trans ?_
    rw [rowsum_eq V c ⟨b.val * 16 + mt.val * 4 + (k + 1), hn⟩ b mt ⟨k + 1, hk⟩ rfl j]
    unfold blockSum
    rw [dif_pos hk]
    exact congrArg (· + _) (congrFun (outsAt1_congr V c (by show b.val * 16 + mt.val * 4 + (k + 1) - 1 = b.val * 16 + mt.val * 4 + k; omega) _ hn') _)

/-- After the last point of a group the running row holds the sum over all 2048 query rows. -/
theorem outsAt_last (b : Fin 16) (mt : Fin 4) (j : Fin 512) (hn : b.val * 16 + mt.val * 4 + 3 < cfg1.N) :
    outsAt1 V c (b.val * 16 + mt.val * 4 + 3) hn (ix3 (0 : Fin 1) (0 : Fin 1) j)
      = ∑ n : Fin 2048, term (V c main_v2) (V c main_arg1) b n (at4 mt j) := by
  rw [outsAt_eq V c b mt j 3 (by decide) hn, sum_at4, Finset.sum_range]
  refine Finset.sum_congr rfl fun q _ => ?_
  unfold blockSum
  rw [dif_pos q.isLt]

/-! ## The write-back and the array -/

/-- The column sums as one function of the two arrays: at (b, 0, m) the sum of the summand over the 2048 query rows. -/
def colArr (zm e : S16x2048x512.Idx → EReal) : S16x1x2048.Idx → EReal :=
  fun i => ∑ n : Fin 2048, term zm e (⟨(i 0).val, (i 0).isLt⟩ : Fin 16) n (⟨(i 2).val, (i 2).isLt⟩ : Fin 2048)

/-- An index of the array is in point t's block iff each coordinate is in the block's range on its axis. -/
theorem mem_blk (t : Fin cfg1.N) (i : S16x1x2048.Idx) :
    i ∈ ((cfg1.win 2).blk t).view.set ↔ ∀ a : Fin 3, win1_2.index t a * S1x1x512.size a ≤ (i a).val
      ∧ (i a).val < win1_2.index t a * S1x1x512.size a + S1x1x512.size a := by
  show i ∈ ((View.whole main_v3).slice (win1_2.rect t)).set ↔ _
  rw [View.set_slice_whole, Rect.mem_set_unit]
  exact Iff.rfl

/-- The last point (b, mt, 3) of a group writes back block (b, 0, mt) of the column sums. -/
theorem flushed_eq (t : Fin cfg1.N) (hf : (cfg1.win 2).flush t = true) :
    (dat1 V c).flushed 2 t = ((cfg1.win 2).blk t).view.read (Elt Ideal) (colArr (V c main_v2) (V c main_arg1)) := by
  have hN : grid1.N = 256 := N_1
  have ht : t.val < 256 := lt_of_lt_of_eq t.isLt hN
  have h3 : t.val % 4 = 3 := (flush1_2 t).mp hf
  obtain ⟨-, -, -, -, -, -, e0, e1, e2⟩ := idx_facts t
  show (cfg1.win 2).cut (grid1.coords t) ((dat1 V c).after 2 t) = _
  rw [after1_2]
  have key : ∀ y : S1x1x512.Idx, outsAt1 V c t.val t.isLt y
      = colArr (V c main_v2) (V c main_arg1) (((cfg1.win 2).blk t).view.emb y) := by
    intro y
    have hy0 : (y 0).val < 1 := (y 0).isLt
    have hy1 : (y 1).val < 1 := (y 1).isLt
    have hy : y = ix3 (0 : Fin 1) (0 : Fin 1) (⟨(y 2).val, (y 2).isLt⟩ : Fin 512) :=
      funext fun a => Fin.ext (by
        match a with
        | ⟨0, _⟩ => show (y 0).val = 0; omega
        | ⟨1, _⟩ => show (y 1).val = 0; omega
        | ⟨2, _⟩ => rfl)
    generalize (⟨(y 2).val, (y 2).isLt⟩ : Fin 512) = j at hy
    subst hy
    have hb : t.val / 16 < 16 := by omega
    have hmt : t.val / 4 % 4 < 4 := by omega
    have hemb : ((cfg1.win 2).blk t).view.emb (ix3 (0 : Fin 1) (0 : Fin 1) j)
        = ix3 (⟨t.val / 16, hb⟩ : Fin 16) (0 : Fin 1) (at4 ⟨t.val / 4 % 4, hmt⟩ j) :=
      funext fun a => Fin.ext (by
        match a with
        | ⟨0, _⟩ => show win1_2.index t 0 * 1 + 1 * 0 = t.val / 16; rw [e0]; omega
        | ⟨1, _⟩ => show win1_2.index t 1 * 1 + 1 * 0 = 0; rw [e1]
        | ⟨2, _⟩ => show win1_2.index t 2 * 512 + 1 * j.val = t.val / 4 % 4 * 512 + j.val; rw [e2]; omega)
    rw [hemb]
    have hn : (⟨t.val / 16, hb⟩ : Fin 16).val * 16 + (⟨t.val / 4 % 4, hmt⟩ : Fin 4).val * 4 + 3 < cfg1.N := by
      show t.val / 16 * 16 + t.val / 4 % 4 * 4 + 3 < grid1.N; omega
    rw [outsAt1_congr V c (show t.val = (⟨t.val / 16, hb⟩ : Fin 16).val * 16 + (⟨t.val / 4 % 4, hmt⟩ : Fin 4).val * 4 + 3 by
      show t.val = t.val / 16 * 16 + t.val / 4 % 4 * 4 + 3; omega) t.isLt hn,
      outsAt_last V c ⟨t.val / 16, hb⟩ ⟨t.val / 4 % 4, hmt⟩ j hn]
    rfl
  funext y
  exact key y

/-- Every index (b, 0, m) of the array lies in the block written back by the point (b, m / 512, 3). -/
theorem cover (i : S16x1x2048.Idx) : ∃ t : Fin cfg1.N, (cfg1.win 2).flush t = true ∧ i ∈ ((cfg1.win 2).blk t).view.set := by
  have hN : grid1.N = 256 := N_1
  have h0 : (i 0).val < 16 := (i 0).isLt
  have h1 : (i 1).val < 1 := (i 1).isLt
  have h2 : (i 2).val < 2048 := (i 2).isLt
  have htN : (i 0).val * 16 + (i 2).val / 512 * 4 + 3 < cfg1.N := by
    show (i 0).val * 16 + (i 2).val / 512 * 4 + 3 < grid1.N; omega
  refine ⟨⟨(i 0).val * 16 + (i 2).val / 512 * 4 + 3, htN⟩, (flush1_2 _).mpr (by show ((i 0).val * 16 + (i 2).val / 512 * 4 + 3) % 4 = 3; omega), ?_⟩
  obtain ⟨-, -, -, -, -, -, e0, e1, e2⟩ := idx_facts ⟨(i 0).val * 16 + (i 2).val / 512 * 4 + 3, htN⟩
  rw [mem_blk]
  intro a
  match a with
  | ⟨0, _⟩ =>
    show win1_2.index ⟨(i 0).val * 16 + (i 2).val / 512 * 4 + 3, htN⟩ 0 * 1 ≤ (i 0).val
      ∧ (i 0).val < win1_2.index ⟨(i 0).val * 16 + (i 2).val / 512 * 4 + 3, htN⟩ 0 * 1 + 1
    rw [e0]; show ((i 0).val * 16 + (i 2).val / 512 * 4 + 3) / 16 * 1 ≤ (i 0).val ∧ (i 0).val < ((i 0).val * 16 + (i 2).val / 512 * 4 + 3) / 16 * 1 + 1; omega
  | ⟨1, _⟩ =>
    show win1_2.index ⟨(i 0).val * 16 + (i 2).val / 512 * 4 + 3, htN⟩ 1 * 1 ≤ (i 1).val
      ∧ (i 1).val < win1_2.index ⟨(i 0).val * 16 + (i 2).val / 512 * 4 + 3, htN⟩ 1 * 1 + 1
    rw [e1]; omega
  | ⟨2, _⟩ =>
    show win1_2.index ⟨(i 0).val * 16 + (i 2).val / 512 * 4 + 3, htN⟩ 2 * 512 ≤ (i 2).val
      ∧ (i 2).val < win1_2.index ⟨(i 0).val * 16 + (i 2).val / 512 * 4 + 3, htN⟩ 2 * 512 + 512
    rw [e2]; show ((i 0).val * 16 + (i 2).val / 512 * 4 + 3) / 4 % 4 * 512 ≤ (i 2).val ∧ (i 2).val < ((i 0).val * 16 + (i 2).val / 512 * 4 + 3) / 4 % 4 * 512 + 512; omega

/-- So after the region the column-sum array holds, at every index, the sum over the query rows. -/
theorem final_arr : (dat1 V c).arrAt 2 cfg1.N = colArr (V c main_v2) (V c main_arg1) :=
  (dat1 V c).arrAt_eq_of_cover 2 (colArr (V c main_v2) (V c main_arg1)) (flushed_eq V c) (cover)

/-- The column sums after the region, entry by entry: at (b, 0, m) the sum over the 2048 query rows n of the exponential
    of the logistic function of the score of row n of z·M against row m of e. -/
theorem colsum_final (xzm xe : S16x2048x512.Idx → EReal) (out : S16x1x2048.Idx → EReal)
    (h0 : xzm = V c main_v2) (h1 : xe = V c main_arg1) (ho : out = (dat1 (F := Ideal) V c).arrAt 2 cfg1.N)
    (b : Fin 16) (m : Fin 2048) :
    out (ix3 b (0 : Fin 1) m)
      = ∑ n : Fin 2048, Ideal.exp (sg (∑ d : Fin 512, xzm (ix3 b n d) * xe (ix3 b m d))) := by
  subst h0 h1 ho
  rw [final_arr V c]
  rfl

end Cert.KernelIdeal.ColSum

end
-- ==== Proof.OutValue.lean ====
/-
  The value of the third region: the output of the query-axis softmax times e, read off the accumulation over the grid.

  The region runs over 16 · 4 · 4 = 256 grid points t = b·16 + nt·4 + mt. At point t the body sees
    rows nt·512 … nt·512 + 511 of batch b of z·M          (512 query positions),
    rows mt·512 … mt·512 + 511 of batch b of e             (512 key positions),
    columns mt·512 … mt·512 + 511 of batch b of the row of column sums,
  and keeps a [512, 512] block of the result for the query rows nt·512 … of batch b: reset at mt = 0, at every point
  increased by   ∑ j, (exp (logistic (score r j)) · (1 / colsum j)) · e j d   over the point's 512 key positions j,
  and written back to the result array at mt = 3. So after point t the block holds the summands of key blocks 0 … mt
  (by induction on the point), at mt = 3 those of all 2048 key positions, and the blocks written back tile the array:
  the result at (b, n, d) is the sum over all key positions m of
    (exp (logistic (∑ k, (z·M) b n k · e b m k)) · (1 / colsum b m)) · e b m d.
  The three input arrays enter as functions on their index sets with equations to the region's entry contents, so that
  the arithmetic is stated on the extended reals.
-/
import proofs.«152962_j29918742184780_2_alg».proof.Proof.Gen.KernelIdeal.Frame
import proofs.«152962_j29918742184780_2_alg».proof.Proof.Pieces
import proofs.«152962_j29918742184780_2_alg».proof.Proof.Payload
import proofs.«152962_j29918742184780_2_alg».proof.Proof.Algebra
import Idealize.ShloMosaic.Lib.Pipeline.Value
import Idealize.ShloMosaic.Lib.ValueIdx

noncomputable section

namespace Cert.KernelIdeal.Out

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Cert.Attn (sg at4 sum_at4)

variable (V : (c : Dev nD) → (b : Ref sig .tc) → Buf (Elt Ideal) ((c : Thread nD τ).loc b)) (c : Dev nD)

variable (xzm xe : S16x2048x512.Idx → EReal) (xcs : S16x1x2048.Idx → EReal)

/-- The four windows' block indices at grid point t, as functions of its position: t = b·16 + nt·4 + mt. -/
theorem idx_facts : ∀ t : Fin cfg2.N,
    win2_0.index t (0 : Fin 3) = t.val / 16 ∧ win2_0.index t (1 : Fin 3) = t.val / 4 % 4 ∧ win2_0.index t (2 : Fin 3) = 0
    ∧ win2_1.index t (0 : Fin 3) = t.val / 16 ∧ win2_1.index t (1 : Fin 3) = t.val % 4 ∧ win2_1.index t (2 : Fin 3) = 0
    ∧ win2_2.index t (0 : Fin 3) = t.val / 16 ∧ win2_2.index t (1 : Fin 3) = 0 ∧ win2_2.index t (2 : Fin 3) = t.val % 4
    ∧ win2_3.index t (0 : Fin 3) = t.val / 16 ∧ win2_3.index t (1 : Fin 3) = t.val / 4 % 4 ∧ win2_3.index t (2 : Fin 3) = 0 :=
  (by decide +kernel : ∀ t : Fin grid2.N, _)

/-- Window 0's block at point t is rows nt·512 … nt·512 + 511 of batch b of z·M. -/
theorem read0 (h0 : xzm = V c main_v2) (t : Fin cfg2.N) (b : Fin 16) (p : Fin 4) (hb : t.val / 16 = b.val)
    (hp : t.val / 4 % 4 = p.val) (r k : Fin 512) :
    (iblk2 V c 0 t : Vec Ideal S1x512x512 .bf16) (ix3 (0 : Fin 1) r k) = xzm (ix3 b (at4 p r) k) := by
  subst h0
  obtain ⟨e0, e1, e2, -⟩ := idx_facts t
  show V c main_v2 (((cfg2.win 0).blk t).view.emb (ix3 (0 : Fin 1) r k)) = V c main_v2 (ix3 b (at4 p r) k)
  refine congrArg (V c main_v2) ?_
  funext a
  apply Fin.ext
  match a with
  | ⟨0, _⟩ => show win2_0.index t (0 : Fin 3) * 1 + 1 * 0 = b.val; omega
  | ⟨1, _⟩ => show win2_0.index t (1 : Fin 3) * 512 + 1 * r.val = p.val * 512 + r.val; omega
  | ⟨2, _⟩ => show win2_0.index t (2 : Fin 3) * 512 + 1 * k.val = k.val; omega

/-- Window 1's block at point t is rows mt·512 … mt·512 + 511 of batch b of e. -/
theorem read1 (h1 : xe = V c main_arg1) (t : Fin cfg2.N) (b : Fin 16) (q : Fin 4) (hb : t.val / 16 = b.val)
    (hq : t.val % 4 = q.val) (j k : Fin 512) :
    (iblk2 V c 1 t : Vec Ideal S1x512x512 .f32) (ix3 (0 : Fin 1) j k) = xe (ix3 b (at4 q j) k) := by
  subst h1
  obtain ⟨-, -, -, e0, e1, e2, -⟩ := idx_facts t
  show V c main_arg1 (((cfg2.win 1).blk t).view.emb (ix3 (0 : Fin 1) j k)) = V c main_arg1 (ix3 b (at4 q j) k)
  refine congrArg (V c main_arg1) ?_
  funext a
  apply Fin.ext
  match a with
  | ⟨0, _⟩ => show win2_1.index t (0 : Fin 3) * 1 + 1 * 0 = b.val; omega
  | ⟨1, _⟩ => show win2_1.index t (1 : Fin 3) * 512 + 1 * j.val = q.val * 512 + j.val; omega
  | ⟨2, _⟩ => show win2_1.index t (2 : Fin 3) * 512 + 1 * k.val = k.val; omega

/-- Window 2's block at point t is columns mt·512 … mt·512 + 511 of batch b of the row of column sums. -/
theorem read2 (h2 : xcs = V c main_v3) (t : Fin cfg2.N) (b : Fin 16) (q : Fin 4) (hb : t.val / 16 = b.val)
    (hq : t.val % 4 = q.val) (j : Fin 512) :
    (iblk2 V c 2 t : Vec Ideal S1x1x512 .f32) (ix3 (0 : Fin 1) (0 : Fin 1) j) = xcs (ix3 b (0 : Fin 1) (at4 q j)) := by
  subst h2
  obtain ⟨-, -, -, -, -, -, e0, e1, e2, -⟩ := idx_facts t
  show V c main_v3 (((cfg2.win 2).blk t).view.emb (ix3 (0 : Fin 1) (0 : Fin 1) j)) = V c main_v3 (ix3 b (0 : Fin 1) (at4 q j))
  refine congrArg (V c main_v3) ?_
  funext a
  apply Fin.ext
  match a with
  | ⟨0, _⟩ => show win2_2.index t (0 : Fin 3) * 1 + 1 * 0 = b.val; omega
  | ⟨1, _⟩ => show win2_2.index t (1 : Fin 3) * 1 + 1 * 0 = 0; omega
  | ⟨2, _⟩ => show win2_2.index t (2 : Fin 3) * 512 + 1 * j.val = q.val * 512 + j.val; omega

/-- The summand of the result at (b, n, d) for key position m: the weight exp (act b n m) / colsum b m times e b m d. -/
def term (b : Fin 16) (n m : Fin 2048) (d : Fin 512) : EReal :=
  (Ideal.exp (sg (∑ k : Fin 512, xzm (ix3 b n k) * xe (ix3 b m k))) * Ideal.div 1 (xcs (ix3 b (0 : Fin 1) m))) * xe (ix3 b m d)

/-- What the body adds at point t, row r, feature d: the summands of key block mt at query row nt·512 + r. -/
theorem pay_sum (h0 : xzm = V c main_v2) (h1 : xe = V c main_arg1) (h2 : xcs = V c main_v3) (t : Fin cfg2.N) (b : Fin 16)
    (p q : Fin 4) (hb : t.val / 16 = b.val) (hp : t.val / 4 % 4 = p.val) (hq : t.val % 4 = q.val) (r d : Fin 512) :
    (∑ j : Fin 512, (Ideal.exp (sg (scoreBlk (iblk2 V c 0 t) (iblk2 V c 1 t) r j))
        * Ideal.div 1 ((iblk2 V c 2 t : Vec Ideal S1x1x512 .f32) (ix3 (0 : Fin 1) (0 : Fin 1) j)))
        * (iblk2 V c 1 t : Vec Ideal S1x512x512 .f32) (ix3 (0 : Fin 1) j d))
      = ∑ j : Fin 512, term xzm xe xcs b (at4 p r) (at4 q j) d := by
  refine Finset.sum_congr rfl fun j _ => ?_
  have hs : scoreBlk (iblk2 V c 0 t) (iblk2 V c 1 t) r j = ∑ k : Fin 512, xzm (ix3 b (at4 p r) k) * xe (ix3 b (at4 q j) k) := by
    unfold scoreBlk
    exact Finset.sum_congr rfl fun k _ => by rw [read0 V c xzm h0 t b p hb hp r k, read1 V c xe h1 t b q hb hq j k]
  rw [hs, read2 V c xcs h2 t b q hb hq j, read1 V c xe h1 t b q hb hq j d]
  rfl

/-- A sum over the four blocks cut off after block 0 is block 0's term. -/
theorem sum_upto_zero {α : Type*} [AddCommMonoid α] (S : Fin 4 → α) (s : ℕ) (hs : s = 0) :
    (∑ q : Fin 4, if q.val ≤ s then S q else 0) = S 0 := by
  subst hs
  rw [Fin.sum_univ_four, if_pos (by decide), if_neg (by decide), if_neg (by decide), if_neg (by decide), add_zero, add_zero,
    add_zero]

/-- A sum over the four blocks cut off after block s + 1 is the sum cut off after block s plus block s + 1's term. -/
theorem sum_upto_succ {α : Type*} [AddCommMonoid α] (S : Fin 4 → α) (s s' : ℕ) (hs : s' = s + 1) (q : Fin 4) (hq : q.val = s') :
    (∑ q' : Fin 4, if q'.val ≤ s' then S q' else 0) = (∑ q' : Fin 4, if q'.val ≤ s then S q' else 0) + S q := by
  subst hs
  have h3 : s = 0 ∨ s = 1 ∨ s = 2 := by have := q.isLt; omega
  rw [Fin.sum_univ_four, Fin.sum_univ_four]
  rcases h3 with rfl | rfl | rfl
  · obtain rfl : q = 1 := Fin.ext hq
    rw [if_pos (by decide), if_pos (by decide), if_neg (by decide), if_neg (by decide), if_pos (by decide), if_neg (by decide),
      if_neg (by decide), if_neg (by decide), add_zero, add_zero, add_zero, add_zero, add_zero]
  · obtain rfl : q = 2 := Fin.ext hq
    rw [if_pos (by decide), if_pos (by decide), if_pos (by decide), if_neg (by decide), if_pos (by decide), if_pos (by decide),
      if_neg (by decide), if_neg (by decide), add_zero, add_zero, add_zero]
  · obtain rfl : q = 3 := Fin.ext hq
    rw [if_pos (by decide), if_pos (by decide), if_pos (by decide), if_pos (by decide), if_pos (by decide), if_pos (by decide),
      if_pos (by decide), if_neg (by decide), add_zero]

/-- A sum over the four blocks cut off after block 3 is the whole sum. -/
theorem sum_upto_three {α : Type*} [AddCommMonoid α] (S : Fin 4 → α) (s : ℕ) (hs : s = 3) :
    (∑ q : Fin 4, if q.val ≤ s then S q else 0) = ∑ q : Fin 4, S q := by
  subst hs
  exact Finset.sum_congr rfl fun q _ => if_pos (by have := q.isLt; omega)

/-- THE ACCUMULATION, in closed form. After the body at position n' = b·16 + nt·4 + mt the output's staging block holds,
    at row r and feature d, the summands of key blocks 0 … mt at query row nt·512 + r of batch b: the block is reset at
    mt = 0 and each later point of the group adds its key block's summands. -/
theorem outsAt_eq (h0 : xzm = V c main_v2) (h1 : xe = V c main_arg1) (h2 : xcs = V c main_v3) :
    ∀ (n' : ℕ) (hn : n' < cfg2.N) (b : Fin 16) (p : Fin 4) (hb : n' / 16 = b.val) (hp : n' / 4 % 4 = p.val) (r d : Fin 512),
      outsAt2 V c n' hn (ix3 (0 : Fin 1) r d)
        = ∑ q : Fin 4, if q.val ≤ n' % 4 then ∑ j : Fin 512, term xzm xe xcs b (at4 p r) (at4 q j) d else 0 := by
  intro n'
  induction n' using Nat.strong_induction_on with
  | _ n' ih =>
    intro hn b p hb hp r d
    have hN : cfg2.N = 256 := N_2
    obtain ⟨mt, hmt⟩ : ∃ mt : Fin 4, n' % 4 = mt.val := ⟨⟨n' % 4, Nat.mod_lt _ (by decide)⟩, rfl⟩
    by_cases hz : n' % 4 = 0
    · rw [outsAt2_A V c ⟨n', hn⟩ hz,
        out_piece_A c (grid2.coords ⟨n', hn⟩) (ms2_0 ⟨n', hn⟩) (hs2_0 ⟨n', hn⟩) (ms2_1 ⟨n', hn⟩) (hs2_1 ⟨n', hn⟩)
          (ms2_2 ⟨n', hn⟩) (hs2_2 ⟨n', hn⟩) (ms2_3 ⟨n', hn⟩) (hs2_3 ⟨n', hn⟩) ((hcond2_0 ⟨n', hn⟩).mpr hz)
          (iblk2 V c 0 ⟨n', hn⟩) (iblk2 V c 1 ⟨n', hn⟩) (iblk2 V c 2 ⟨n', hn⟩)]
      refine (out_pay_apply (iblk2 V c 0 ⟨n', hn⟩) (iblk2 V c 1 ⟨n', hn⟩) (iblk2 V c 2 ⟨n', hn⟩) k2_pay1 r d).trans ?_
      rw [out_zero_apply, zero_add, pay_sum V c xzm xe xcs h0 h1 h2 ⟨n', hn⟩ b p mt hb hp hmt r d,
        sum_upto_zero _ _ hz]
      obtain rfl : mt = 0 := Fin.ext (by rw [← hmt, hz]; rfl)
      rfl
    · rw [outsAt2_B V c ⟨n', hn⟩ hz,
        out_piece_B c (grid2.coords ⟨n', hn⟩) (ms2_0 ⟨n', hn⟩) (hs2_0 ⟨n', hn⟩) (ms2_1 ⟨n', hn⟩) (hs2_1 ⟨n', hn⟩)
          (ms2_2 ⟨n', hn⟩) (hs2_2 ⟨n', hn⟩) (ms2_3 ⟨n', hn⟩) (hs2_3 ⟨n', hn⟩) (fun h => hz ((hcond2_0 ⟨n', hn⟩).mp h))
          (iblk2 V c 0 ⟨n', hn⟩) (iblk2 V c 1 ⟨n', hn⟩) (iblk2 V c 2 ⟨n', hn⟩)
          (outsAt2 V c (n' - 1) (Nat.lt_of_le_of_lt (Nat.sub_le _ _) hn))]
      refine (out_pay_apply (iblk2 V c 0 ⟨n', hn⟩) (iblk2 V c 1 ⟨n', hn⟩) (iblk2 V c 2 ⟨n', hn⟩)
        (outsAt2 V c (n' - 1) (Nat.lt_of_le_of_lt (Nat.sub_le _ _) hn)) r d).trans ?_
      rw [ih (n' - 1) (by omega) (Nat.lt_of_le_of_lt (Nat.sub_le _ _) hn) b p (by omega) (by omega) r d,
        pay_sum V c xzm xe xcs h0 h1 h2 ⟨n', hn⟩ b p mt hb hp hmt r d]
      exact (sum_upto_succ (fun q => ∑ j : Fin 512, term xzm xe xcs b (at4 p r) (at4 q j) d) ((n' - 1) % 4) (n' % 4)
        (by omega) mt hmt.symm).symm

/-- The result array as one function of its index: at (b, n, d) the sum over all 2048 key positions of the summands. -/
def G : S16x2048x512.Idx → EReal := fun i => ∑ m : Fin 2048, term xzm xe xcs (i 0) (i 1) m (i 2)

theorem G_apply (b : Fin 16) (n : Fin 2048) (d : Fin 512) :
    G xzm xe xcs (ix3 b n d) = ∑ m : Fin 2048, term xzm xe xcs b n m d := rfl

/-- WHAT A FLUSHING POINT WRITES BACK. At the last point of a group (mt = 3) the staging block holds the summands of all
    four key blocks, that is of all 2048 key positions: block (b, nt, 0) of the result function. -/
theorem flushed_eq (h0 : xzm = V c main_v2) (h1 : xe = V c main_arg1) (h2 : xcs = V c main_v3) (t : Fin cfg2.N)
    (hf : (cfg2.win 3).flush t = true) :
    (dat2 (F := Ideal) V c).flushed 3 t = ((cfg2.win 3).blk t).view.read (Elt Ideal) (G xzm xe xcs) := by
  have hN : cfg2.N = 256 := N_2
  have h3 : t.val % 4 = 3 := (flush2_3 t).mp hf
  have htl : t.val < 256 := lt_of_lt_of_eq t.isLt hN
  obtain ⟨-, -, -, -, -, -, -, -, -, e0, e1, e2⟩ := idx_facts t
  obtain ⟨b, hb⟩ : ∃ b : Fin 16, t.val / 16 = b.val := ⟨⟨t.val / 16, by omega⟩, rfl⟩
  obtain ⟨p, hp⟩ : ∃ p : Fin 4, t.val / 4 % 4 = p.val := ⟨⟨t.val / 4 % 4, Nat.mod_lt _ (by decide)⟩, rfl⟩
  show (cfg2.win 3).cut (grid2.coords t) ((dat2 V c).after 3 t) = _
  rw [after2_3]
  refine funext fun (y : S1x512x512.Idx) => ?_
  obtain ⟨r, d, rfl⟩ : ∃ (r d : Fin 512), y = ix3 (0 : Fin 1) r d :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  show outsAt2 V c t.val t.isLt (ix3 (0 : Fin 1) r d) = G xzm xe xcs (((cfg2.win 3).blk t).view.emb (ix3 (0 : Fin 1) r d))
  have hemb : ((cfg2.win 3).blk t).view.emb (ix3 (0 : Fin 1) r d) = ix3 b (at4 p r) d := by
    funext a
    apply Fin.ext
    match a with
    | ⟨0, _⟩ => show win2_3.index t (0 : Fin 3) * 1 + 1 * 0 = b.val; omega
    | ⟨1, _⟩ => show win2_3.index t (1 : Fin 3) * 512 + 1 * r.val = p.val * 512 + r.val; omega
    | ⟨2, _⟩ => show win2_3.index t (2 : Fin 3) * 512 + 1 * d.val = d.val; omega
  rw [hemb, G_apply, outsAt_eq V c xzm xe xcs h0 h1 h2 t.val t.isLt b p hb hp r d, sum_upto_three _ _ h3]
  exact (sum_at4 (fun m => term xzm xe xcs b (at4 p r) m d)).symm

/-- An index of the result array is in point t's block iff each coordinate is in the block's range on its axis. -/
theorem mem_blk (t : Fin cfg2.N) (i : S16x2048x512.Idx) :
    i ∈ ((cfg2.win 3).blk t).view.set ↔ ∀ a : Fin 3, win2_3.index t a * S1x512x512.size a ≤ (i a).val
      ∧ (i a).val < win2_3.index t a * S1x512x512.size a + S1x512x512.size a := by
  show i ∈ ((View.whole main_v4).slice (win2_3.rect t)).set ↔ _
  rw [View.set_slice_whole, Rect.mem_set_unit]
  exact Iff.rfl

/-- THE COVER. Index (b, n, d) lies in the block written back at the flushing point b·16 + (n / 512)·4 + 3. -/
theorem cover (i : S16x2048x512.Idx) :
    ∃ t : Fin cfg2.N, (cfg2.win 3).flush t = true ∧ i ∈ ((cfg2.win 3).blk t).view.set := by
  have hN : cfg2.N = 256 := N_2
  have hi0 : (i 0).val < 16 := (i 0).isLt
  have hi1 : (i 1).val < 2048 := (i 1).isLt
  have hi2 : (i 2).val < 512 := (i 2).isLt
  obtain ⟨t, ht⟩ : ∃ t : Fin cfg2.N, t.val = (i 0).val * 16 + (i 1).val / 512 * 4 + 3 :=
    ⟨⟨(i 0).val * 16 + (i 1).val / 512 * 4 + 3, by omega⟩, rfl⟩
  obtain ⟨-, -, -, -, -, -, -, -, -, e0, e1, e2⟩ := idx_facts t
  refine ⟨t, (flush2_3 t).mpr (by omega), ?_⟩
  rw [mem_blk]
  intro a
  match a with
  | ⟨0, _⟩ =>
    show win2_3.index t (0 : Fin 3) * 1 ≤ (i 0).val ∧ (i 0).val < win2_3.index t (0 : Fin 3) * 1 + 1
    omega
  | ⟨1, _⟩ =>
    show win2_3.index t (1 : Fin 3) * 512 ≤ (i 1).val ∧ (i 1).val < win2_3.index t (1 : Fin 3) * 512 + 512
    omega
  | ⟨2, _⟩ =>
    show win2_3.index t (2 : Fin 3) * 512 ≤ (i 2).val ∧ (i 2).val < win2_3.index t (2 : Fin 3) * 512 + 512
    omega

/-- THE RESULT OF THE THIRD REGION. With z·M, e and the row of column sums as the region finds them, the result array
    ends holding at (b, n, d) the sum over all key positions m of
    (exp (logistic (∑ k, (z·M) b n k · e b m k)) · (1 / colsum b m)) · e b m d. -/
theorem out_final (out : S16x2048x512.Idx → EReal) (h0 : xzm = V c main_v2) (h1 : xe = V c main_arg1) (h2 : xcs = V c main_v3)
    (ho : out = (dat2 (F := Ideal) V c).arrAt 3 cfg2.N) (b : Fin 16) (n : Fin 2048) (d : Fin 512) :
    out (ix3 b n d)
      = ∑ m : Fin 2048, (Ideal.exp (sg (∑ k : Fin 512, xzm (ix3 b n k) * xe (ix3 b m k)))
          * Ideal.div 1 (xcs (ix3 b (0 : Fin 1) m))) * xe (ix3 b m d) := by
  have hfin : (dat2 (F := Ideal) V c).arrAt 3 cfg2.N = G xzm xe xcs :=
    (dat2 (F := Ideal) V c).arrAt_eq_of_cover 3 (G xzm xe xcs) (flushed_eq V c xzm xe xcs h0 h1 h2) cover
  rw [ho, hfin, G_apply]
  rfl

end Cert.KernelIdeal.Out

end
-- ==== Proof.Whole.lean ====
/-
  The kernel program's result array as one function of its three argument arrays.

  The program runs three kernels one after the other, with a reshape between the first two:
    the first writes z·M (as a flat [32768, 512] array, row b·2048 + n holding row n of batch b);
    the second, given z·M and e, writes the column sums over the query axis of exp (act);
    the third, given z·M, e and the column sums, writes ∑ m, (exp (act b n m) · (1 / colsum b m)) · e b m d.
  Reading each kernel's output where the next one finds it gives the specification's outK.
-/
import proofs.«152962_j29918742184780_2_alg».proof.Proof.Spec
import proofs.«152962_j29918742184780_2_alg».proof.Proof.KernelRun
import proofs.«152962_j29918742184780_2_alg».proof.Proof.ZmValue
import proofs.«152962_j29918742184780_2_alg».proof.Proof.ColSumValue
import proofs.«152962_j29918742184780_2_alg».proof.Proof.OutValue
import Idealize.ShloMosaic.Lib.ValueIdx

noncomputable section

namespace Cert.KernelIdeal.Whole

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ) (ρ : Dev nD → PrngReg)

/-- The row of the flattened [32768, 512] array that holds row n of batch b. -/
def flat (b : Fin 16) (n : Fin 2048) : Fin 32768 := ⟨b.val * 2048 + n.val, by have := b.isLt; have := n.isLt; omega⟩

/-- What the second and third kernels find in their first operand: z·M, by the first kernel's value and the two reshapes. -/
theorem v2_apply (c : Dev nD) (b : Fin 16) (n : Fin 2048) (k : Fin 512) :
    V3 m ρ c main_v2 (ix3 b n k) = zm (m ((c : Thread nD τ).loc main_arg0)) (m ((c : Thread nD τ).loc main_arg2)) b n k := by
  rw [Run.V3_v2, ZmValue.reshape_out _ b n k (flat b n) rfl, Run.V2_v1,
    ZmValue.zm_final (V1 m ρ) c _ _ (Run.V1_v0 m ρ c) (Run.V1_arg2 m ρ c) (flat b n) k]
  show @Eq EReal _ _
  unfold zm
  refine Finset.sum_congr rfl fun d _ => ?_
  rw [ZmValue.reshape_in _ b n d (flat b n) rfl]

/-- What the third kernel finds in its third operand: the column sums, by the second kernel's value. -/
theorem v3_apply (c : Dev nD) (xcs : S16x1x2048.Idx → EReal) (hcs : xcs = V4 m ρ c main_v3) (b : Fin 16) (k : Fin 2048) :
    xcs (ix3 b (0 : Fin 1) k)
      = colsum (m ((c : Thread nD τ).loc main_arg0)) (m ((c : Thread nD τ).loc main_arg1)) (m ((c : Thread nD τ).loc main_arg2)) b k := by
  rw [ColSum.colsum_final (V3 m ρ) c (V3 m ρ c main_v2) (m ((c : Thread nD τ).loc main_arg1)) xcs rfl (Run.V3_arg1 m ρ c).symm
    (hcs.trans (Run.V4_v3 m ρ c)) b k]
  unfold colsum act score
  refine Finset.sum_congr rfl fun n _ => ?_
  refine congrArg (fun s => Ideal.exp (sg s)) (Finset.sum_congr rfl fun d _ => ?_)
  exact congrArg (· * _) (v2_apply m ρ c b n d)

/-- The result array of the kernel program, index by index. -/
theorem kernel_value (c : Dev nD) (out : S16x2048x512.Idx → EReal) (hout : out = (dat2 (F := Ideal) (V4 m ρ) c).arrAt 3 cfg2.N)
    (b : Fin 16) (n : Fin 2048) (d : Fin 512) :
    out (ix3 b n d)
      = outK (m ((c : Thread nD τ).loc main_arg0)) (m ((c : Thread nD τ).loc main_arg1)) (m ((c : Thread nD τ).loc main_arg2)) b n d := by
  obtain ⟨xzm, hxzm⟩ : ∃ x : S16x2048x512.Idx → EReal, x = V4 m ρ c main_v2 := ⟨_, rfl⟩
  obtain ⟨xe, hxe⟩ : ∃ x : S16x2048x512.Idx → EReal, x = m ((c : Thread nD τ).loc main_arg1) := ⟨_, rfl⟩
  have hz : ∀ (n' : Fin 2048) (k' : Fin 512), xzm (ix3 b n' k')
      = zm (m ((c : Thread nD τ).loc main_arg0)) (m ((c : Thread nD τ).loc main_arg2)) b n' k' := fun n' k' => by
    rw [hxzm, Run.V4_v2]; exact v2_apply m ρ c b n' k'
  rw [Out.out_final (V4 m ρ) c xzm xe (V4 m ρ c main_v3) out hxzm (hxe.trans (Run.V4_arg1 m ρ c).symm) rfl hout b n d]
  unfold outK act score
  refine Finset.sum_congr rfl fun k _ => ?_
  rw [v3_apply m ρ c (V4 m ρ c main_v3) rfl b k]
  simp only [hz]
  subst hxe
  rfl

end Cert.KernelIdeal.Whole

end
-- ==== Proof.lean ====
/-
  Bilinear attention with a softmax over the query axis: the kernel program against its reference.

  Both programs compute, from z, e : [16, 2048, 512] and M : [512, 512], the activation
  act b n m = logistic ((z·M)·eᵀ) and then  ∑ m, softmax over n of act b n m  ·  e b m d.
  The reference subtracts the column maximum of act before the exponential and divides by the shifted column sum;
  the kernel program multiplies the plain exponential by the reciprocal of the plain column sum, and accumulates both the
  column sums and the final product block by block. On the extended reals the logistic function takes real values at
  every argument, so both normalizers are positive reals and the two arrangements are the same function
  (Proof/Algebra.lean); sums over 2048 positions regroup into four blocks of 512 freely. The three frames are the
  programs' runs; the idealization rewrote nothing.
-/
import proofs.«152962_j29918742184780_2_alg».proof.Defs
import proofs.«152962_j29918742184780_2_alg».proof.Proof.Gen.Kernel
import proofs.«152962_j29918742184780_2_alg».proof.Proof.Gen.Kernel.Skeleton
import proofs.«152962_j29918742184780_2_alg».proof.Proof.Gen.Kernel.Launch
import proofs.«152962_j29918742184780_2_alg».proof.Proof.Gen.Kernel.Points
import proofs.«152962_j29918742184780_2_alg».proof.Proof.Gen.Kernel.Frame
import proofs.«152962_j29918742184780_2_alg».proof.Proof.Gen.KernelIdeal
import proofs.«152962_j29918742184780_2_alg».proof.Proof.Gen.KernelIdeal.Skeleton
import proofs.«152962_j29918742184780_2_alg».proof.Proof.Gen.KernelIdeal.Launch
import proofs.«152962_j29918742184780_2_alg».proof.Proof.Gen.KernelIdeal.Points
import proofs.«152962_j29918742184780_2_alg».proof.Proof.Gen.KernelIdeal.Frame
import proofs.«152962_j29918742184780_2_alg».proof.Proof.Gen.ReferenceIdeal
import proofs.«152962_j29918742184780_2_alg».proof.Proof.Gen.Pre_finite_inputs
import proofs.«152962_j29918742184780_2_alg».proof.Proof.Gen.ReferenceIdeal.Run
import proofs.«152962_j29918742184780_2_alg».proof.Proof.Gen.ReferenceIdeal.Read
import proofs.«152962_j29918742184780_2_alg».proof.Proof.Algebra
import proofs.«152962_j29918742184780_2_alg».proof.Proof.RefValue
import proofs.«152962_j29918742184780_2_alg».proof.Proof.KernelRun
import proofs.«152962_j29918742184780_2_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel program's is outK of the arguments, the reference's is outR of
    arguments that agree, and the two arrangements of the softmax are one function. -/
theorem algebraic : Cert.algebraic_KernelIdeal_ReferenceIdeal := by
  intro m ρ m' ρ' _ hagree
  refine ⟨fun c => (Cert.KernelIdeal.Gen.dat2 (F := Ideal) (Cert.KernelIdeal.Gen.V4 m ρ) c).arrAt 3 Cert.KernelIdeal.cfg2.N,
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  funext i
  obtain ⟨b, n, d, rfl⟩ : ∃ (b : Fin 16) (n : Fin 2048) (d : Fin 512), i = ix3 b n d := ⟨i 0, i 1, i 2, eq_ix3 i⟩
  rw [Cert.ReferenceIdeal.RefValue.ref_apply, ← Cert.Attn.outK_eq_outR]
  exact (Cert.KernelIdeal.Whole.kernel_value m ρ c _ rfl b n d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
